-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x64 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S1x64 .f32 := Host.absf main_arg13
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x64 .f32) (main_arg12 : FVec F S64 .f32) (main_arg13 : FVec F S1x64 .f32) (main_arg14 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S1x64 .f32) (main_arg14 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x3200000 32) (main_arg2 : IVec S100000 32) (main_arg3 : FVec F S64x128 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S1x64 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S3200000x64 : Shape := ⟨2, ![3200000, 64]⟩
abbrev S5000x1 : Shape := ⟨2, ![5000, 1]⟩
abbrev S1024x64 : Shape := ⟨2, ![1024, 64]⟩
abbrev S1024 : Shape := ⟨1, ![1024]⟩
abbrev S1024x1 : Shape := ⟨2, ![1024, 1]⟩
abbrev S64x1 : Shape := ⟨2, ![64, 1]⟩
abbrev S1x1 : Shape := ⟨2, ![1, 1]⟩

abbrev nBuf : Space → Nat
  | .hbm => 132
  | .vmem => 54
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S64x128, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S1x64, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S_, .f32⟩
  | 20 => ⟨S3200000, .f32⟩
  | 21 => ⟨S_, .f32⟩
  | 22 => ⟨S100000, .f32⟩
  | 23 => ⟨S3200000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000, .f32⟩
  | 30 => ⟨S100000x1, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S3200000x1, .f32⟩
  | 51 => ⟨S128x64, .f32⟩
  | 52 => ⟨S1x64, .f32⟩
  | 53 => ⟨S100000x64, .f32⟩
  | 54 => ⟨S64x64, .f32⟩
  | 55 => ⟨S100000x64, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x64, .f32⟩
  | 65 => ⟨S3200000x64, .f32⟩
  | 66 => ⟨S3200000x64, .f32⟩
  | 67 => ⟨S_, .f32⟩
  | 68 => ⟨S100000x64, .f32⟩
  | 69 => ⟨S3200000x1, .i32⟩
  | 70 => ⟨S100000x64, .f32⟩
  | 71 => ⟨S1x64, .f32⟩
  | 72 => ⟨S100000x64, .f32⟩
  | 73 => ⟨S64x64, .f32⟩
  | 74 => ⟨S100000x64, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x64, .f32⟩
  | 84 => ⟨S3200000x64, .f32⟩
  | 85 => ⟨S3200000x64, .f32⟩
  | 86 => ⟨S_, .f32⟩
  | 87 => ⟨S100000x64, .f32⟩
  | 88 => ⟨S3200000x1, .i32⟩
  | 89 => ⟨S100000x64, .f32⟩
  | 90 => ⟨S1x64, .f32⟩
  | 91 => ⟨S100000x64, .f32⟩
  | 92 => ⟨S64x64, .f32⟩
  | 93 => ⟨S100000x64, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x64, .f32⟩
  | 103 => ⟨S3200000x64, .f32⟩
  | 104 => ⟨S3200000x64, .f32⟩
  | 105 => ⟨S_, .f32⟩
  | 106 => ⟨S100000x64, .f32⟩
  | 107 => ⟨S3200000x1, .i32⟩
  | 108 => ⟨S100000x64, .f32⟩
  | 109 => ⟨S1x64, .f32⟩
  | 110 => ⟨S100000x64, .f32⟩
  | 111 => ⟨S_, .f32⟩
  | 112 => ⟨S1024x64, .f32⟩
  | 113 => ⟨S100000x1, .i32⟩
  | 114 => ⟨S1024x64, .f32⟩
  | 115 => ⟨S_, .f32⟩
  | 116 => ⟨S100000, .f32⟩
  | 117 => ⟨S_, .f32⟩
  | 118 => ⟨S1024, .f32⟩
  | 119 => ⟨S100000x1, .i32⟩
  | 120 => ⟨S1024, .f32⟩
  | 121 => ⟨S_, .f32⟩
  | 122 => ⟨S1024, .f32⟩
  | 123 => ⟨S1024, .f32⟩
  | 124 => ⟨S1024x1, .f32⟩
  | 125 => ⟨S1024x64, .f32⟩
  | 126 => ⟨S1024x64, .f32⟩
  | 127 => ⟨S64x64, .f32⟩
  | _ => ⟨S100000x128, .f32⟩

abbrev hbmTy0_1 (i : Nat) : BufTy := match i % 128 with
  | 0 => ⟨S1x64, .f32⟩
  | 1 => ⟨S64x1, .f32⟩
  | 2 => ⟨S1x1, .f32⟩
  | 3 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x1, .f32⟩
  | .local _ .vmem, ⟨44, _⟩ => ⟨S5000x1, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S1024x64, .f32⟩
  | .local _ .vmem, ⟨49, _⟩ => ⟨S64x64, .f32⟩
  | .local _ .vmem, ⟨50, _⟩ => ⟨S1x64, .f32⟩
  | .local _ .vmem, ⟨51, _⟩ => ⟨S64x1, .f32⟩
  | .local _ .vmem, ⟨52, _⟩ => ⟨S1x1, .f32⟩
  | .local _ .vmem, ⟨53, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1024x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1024x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S3200000_S3200000x1 : S3200000.ShapeCasts S3200000x1
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  transposes_S1x64_S64x1_1_0 : S1x64.Transposes [1, 0] S64x1
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1024x64.size a ≤ S1024x64.size a
  hwx7_0 : ∀ i : grid7.Coords, EltTy.bits .f32 = 32 ∨ (Rect.block (s := S1024x64) S1024x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x1.size a ≤ S64x1.size a
  hwx7_3 : ∀ i : grid7.Coords, EltTy.bits .f32 = 32 ∨ (Rect.block (s := S64x1) S64x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1024x1.size a ≤ S1024x1.size a
  hwx7_5 : ∀ i : grid7.Coords, EltTy.bits .f32 = 32 ∨ (Rect.block (s := S1024x1) S1024x1.size (cc7_transform_5 i) (hinb7_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v63) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v78) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v91) S1024x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v92) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94) S64x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v95) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v96) S1024x1.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S128x64 : Shape := ⟨2, ![128, 64]⟩
abbrev S100000x64 : Shape := ⟨2, ![100000, 64]⟩
abbrev S3200000x64 : Shape := ⟨2, ![3200000, 64]⟩
abbrev S100000x1 : Shape := ⟨2, ![100000, 1]⟩
abbrev S1024x64 : Shape := ⟨2, ![1024, 64]⟩
abbrev S1024 : Shape := ⟨1, ![1024]⟩
abbrev S1024x1 : Shape := ⟨2, ![1024, 1]⟩
abbrev S64x1 : Shape := ⟨2, ![64, 1]⟩
abbrev S1x1 : Shape := ⟨2, ![1, 1]⟩

abbrev nBuf : Space → Nat
  | .hbm => 210
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S64x128, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S1x64, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S_, .f32⟩
  | 20 => ⟨S3200000, .f32⟩
  | 21 => ⟨S_, .f32⟩
  | 22 => ⟨S100000, .f32⟩
  | 23 => ⟨S3200000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S128x64, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S64x64, .f32⟩
  | 38 => ⟨S100000x64, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000, .f32⟩
  | 57 => ⟨S3200000, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x64, .f32⟩
  | 67 => ⟨S3200000x1, .f32⟩
  | 68 => ⟨S3200000x64, .f32⟩
  | 69 => ⟨S3200000x64, .f32⟩
  | 70 => ⟨S_, .f32⟩
  | 71 => ⟨S100000x64, .f32⟩
  | 72 => ⟨S3200000x1, .i32⟩
  | 73 => ⟨S100000x64, .f32⟩
  | 74 => ⟨S100000, .f32⟩
  | 75 => ⟨S100000x1, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S64x64, .f32⟩
  | 86 => ⟨S100000x64, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000, .f32⟩
  | 105 => ⟨S3200000, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x64, .f32⟩
  | 115 => ⟨S3200000x1, .f32⟩
  | 116 => ⟨S3200000x64, .f32⟩
  | 117 => ⟨S3200000x64, .f32⟩
  | 118 => ⟨S_, .f32⟩
  | 119 => ⟨S100000x64, .f32⟩
  | 120 => ⟨S3200000x1, .i32⟩
  | 121 => ⟨S100000x64, .f32⟩
  | 122 => ⟨S100000, .f32⟩
  | 123 => ⟨S100000x1, .f32⟩
  | 124 => ⟨S100000x64, .f32⟩
  | 125 => ⟨S100000x64, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S64x64, .f32⟩
  | 6 => ⟨S100000x64, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000, .f32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S3200000, .f32⟩
  | 25 => ⟨S3200000, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000x64, .f32⟩
  | 35 => ⟨S3200000x1, .f32⟩
  | 36 => ⟨S3200000x64, .f32⟩
  | 37 => ⟨S3200000x64, .f32⟩
  | 38 => ⟨S_, .f32⟩
  | 39 => ⟨S100000x64, .f32⟩
  | 40 => ⟨S3200000x1, .i32⟩
  | 41 => ⟨S100000x64, .f32⟩
  | 42 => ⟨S100000, .f32⟩
  | 43 => ⟨S100000x1, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .f32⟩
  | 54 => ⟨S1024x64, .f32⟩
  | 55 => ⟨S100000x1, .i32⟩
  | 56 => ⟨S1024x64, .f32⟩
  | 57 => ⟨S_, .f32⟩
  | 58 => ⟨S100000, .f32⟩
  | 59 => ⟨S_, .f32⟩
  | 60 => ⟨S1024, .f32⟩
  | 61 => ⟨S100000x1, .i32⟩
  | 62 => ⟨S1024, .f32⟩
  | 63 => ⟨S_, .f32⟩
  | 64 => ⟨S1024, .f32⟩
  | 65 => ⟨S1024, .f32⟩
  | 66 => ⟨S1024x1, .f32⟩
  | 67 => ⟨S1024x64, .f32⟩
  | 68 => ⟨S1024x64, .f32⟩
  | 69 => ⟨S64x64, .f32⟩
  | 70 => ⟨S1024x64, .f32⟩
  | 71 => ⟨S1x64, .f32⟩
  | 72 => ⟨S1024x64, .f32⟩
  | 73 => ⟨S1024x64, .f32⟩
  | 74 => ⟨S_, .f32⟩
  | 75 => ⟨S1024x64, .f32⟩
  | 76 => ⟨S1024x64, .f32⟩
  | 77 => ⟨S64x1, .f32⟩
  | 78 => ⟨S1024x1, .f32⟩
  | 79 => ⟨S1x1, .f32⟩
  | 80 => ⟨S1024x1, .f32⟩
  | 81 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_8 : Ref sig .tc := ⟨.hbm, 87, rfl⟩
abbrev main_v58 : Ref sig .tc := ⟨.hbm, 88, rfl⟩
abbrev main_v59 : Ref sig .tc := ⟨.hbm, 89, rfl⟩
abbrev main_c_9 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_10 : Ref sig .tc := ⟨.hbm, 96, rfl⟩
abbrev main_v65 : Ref sig .tc := ⟨.hbm, 97, rfl⟩
abbrev main_v66 : Ref sig .tc := ⟨.hbm, 98, rfl⟩
abbrev main_c_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_12 : Ref sig .tc := ⟨.hbm, 106, rfl⟩
abbrev main_v73 : Ref sig .tc := ⟨.hbm, 107, rfl⟩
abbrev main_v74 : Ref sig .tc := ⟨.hbm, 108, rfl⟩
abbrev main_c_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_call2_cst : Ref sig .tc := ⟨.hbm, 130, rfl⟩
abbrev main_call2_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_15 : Ref sig .tc := ⟨.hbm, 135, rfl⟩
abbrev main_v97 : Ref sig .tc := ⟨.hbm, 136, rfl⟩
abbrev main_v98 : Ref sig .tc := ⟨.hbm, 137, rfl⟩
abbrev main_c_16 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_17 : Ref sig .tc := ⟨.hbm, 144, rfl⟩
abbrev main_v104 : Ref sig .tc := ⟨.hbm, 145, rfl⟩
abbrev main_v105 : Ref sig .tc := ⟨.hbm, 146, rfl⟩
abbrev main_c_18 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_19 : Ref sig .tc := ⟨.hbm, 154, rfl⟩
abbrev main_v112 : Ref sig .tc := ⟨.hbm, 155, rfl⟩
abbrev main_v113 : Ref sig .tc := ⟨.hbm, 156, rfl⟩
abbrev main_c_20 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_21 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_call3_cst : Ref sig .tc := ⟨.hbm, 178, rfl⟩
abbrev main_call3_v0 : Ref sig .tc := ⟨.hbm, 179, rfl⟩
abbrev main_v133 : Ref sig .tc := ⟨.hbm, 180, rfl⟩
abbrev main_cst_22 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_23 : Ref sig .tc := ⟨.hbm, 185, rfl⟩
abbrev main_v137 : Ref sig .tc := ⟨.hbm, 186, rfl⟩
abbrev main_cst_24 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_25 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_call4_cst : Ref sig .tc := ⟨.hbm, 202, rfl⟩
abbrev main_call4_v0 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S3200000x1_S3200000x64_0_1 : S3200000x1.BroadcastsInDim S3200000x64 (![0, 1] : Fin 2 → Fin S3200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  transposes_S1x64_S64x1_1_0 : S1x64.Transposes [1, 0] S64x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.Persist.lean ====
/-
  What @main computes once and then only reads.  After the first stretch of host operations (the edge lists split out of
  edge_index, the degrees, their inverse square roots, the self-loop and edge weights) nothing writes the buffers of
  the weight and bias arguments, of the graph assignment, of the two edge lists or of the two weight vectors again: a
  later host operation writes its own result buffer, and a kernel region writes only its output array and leaves every
  other buffer — an input array of its own included — as it found it.  So at every later boundary of the run these
  fifteen buffers hold what they held after the first stretch.  `Persist W W₀` says so of a boundary's contents `W`
  against reference contents `W₀`; one lemma per host stretch and per region carries it across.
-/
import proofs.«181907_j87514253623368_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg) (c : Dev nD)

/-- The fifteen buffers read after the first host stretch and never written again hold in `W` what they hold in `W₀`. -/
structure Persist (W W₀ : Valuation τ sig (Elt F)) : Prop where
  a2 : W (Proc.devRef .tc main_arg2) = W₀ (Proc.devRef .tc main_arg2)
  a5 : W (Proc.devRef .tc main_arg5) = W₀ (Proc.devRef .tc main_arg5)
  a6 : W (Proc.devRef .tc main_arg6) = W₀ (Proc.devRef .tc main_arg6)
  a7 : W (Proc.devRef .tc main_arg7) = W₀ (Proc.devRef .tc main_arg7)
  a8 : W (Proc.devRef .tc main_arg8) = W₀ (Proc.devRef .tc main_arg8)
  a9 : W (Proc.devRef .tc main_arg9) = W₀ (Proc.devRef .tc main_arg9)
  a10 : W (Proc.devRef .tc main_arg10) = W₀ (Proc.devRef .tc main_arg10)
  a11 : W (Proc.devRef .tc main_arg11) = W₀ (Proc.devRef .tc main_arg11)
  a12 : W (Proc.devRef .tc main_arg12) = W₀ (Proc.devRef .tc main_arg12)
  a13 : W (Proc.devRef .tc main_arg13) = W₀ (Proc.devRef .tc main_arg13)
  a14 : W (Proc.devRef .tc main_arg14) = W₀ (Proc.devRef .tc main_arg14)
  v1 : W (Proc.devRef .tc main_v1) = W₀ (Proc.devRef .tc main_v1)
  v3 : W (Proc.devRef .tc main_v3) = W₀ (Proc.devRef .tc main_v3)
  v12 : W (Proc.devRef .tc main_v12) = W₀ (Proc.devRef .tc main_v12)
  v28 : W (Proc.devRef .tc main_v28) = W₀ (Proc.devRef .tc main_v28)

theorem Persist.refl (W : Valuation τ sig (Elt F)) : Persist W W := ⟨rfl, rfl, rfl, rfl, rfl, rfl, rfl, rfl, rfl, rfl, rfl, rfl, rfl, rfl, rfl⟩

variable {W₀ : Valuation τ sig (Elt F)}

/-- Region 0 writes only its output array: the fifteen buffers are as it found them. -/
theorem region0 (h : Persist (W1 m ρ c) W₀) : Persist (W2 m ρ c) W₀ where
  a2 := (W2_of_ne m ρ c main_arg2 (by decide)).trans h.a2
  a5 := (W2_of_ne m ρ c main_arg5 (by decide)).trans h.a5
  a6 := (W2_of_ne m ρ c main_arg6 (by decide)).trans h.a6
  a7 := (W2_of_ne m ρ c main_arg7 (by decide)).trans h.a7
  a8 := (W2_of_ne m ρ c main_arg8 (by decide)).trans h.a8
  a9 := (W2_of_ne m ρ c main_arg9 (by decide)).trans h.a9
  a10 := (W2_of_ne m ρ c main_arg10 (by decide)).trans h.a10
  a11 := (W2_of_ne m ρ c main_arg11 (by decide)).trans h.a11
  a12 := (W2_of_ne m ρ c main_arg12 (by decide)).trans h.a12
  a13 := (W2_of_ne m ρ c main_arg13 (by decide)).trans h.a13
  a14 := (W2_of_ne m ρ c main_arg14 (by decide)).trans h.a14
  v1 := (W2_of_ne m ρ c main_v1 (by decide)).trans h.v1
  v3 := (W2_of_ne m ρ c main_v3 (by decide)).trans h.v3
  v12 := (W2_of_ne m ρ c main_v12 (by decide)).trans h.v12
  v28 := (W2_of_ne m ρ c main_v28 (by decide)).trans h.v28

/-- No operation of host stretch 1 writes any of the fifteen buffers. -/
theorem host1 (h : Persist (W2 m ρ c) W₀) : Persist (W3 m ρ c) W₀ where
  a2 := (show StableHlo.after hostOps1 (W2 m ρ c) (Proc.devRef .tc main_arg2) = W2 m ρ c (Proc.devRef .tc main_arg2) by after_results_simp).trans h.a2
  a5 := (show StableHlo.after hostOps1 (W2 m ρ c) (Proc.devRef .tc main_arg5) = W2 m ρ c (Proc.devRef .tc main_arg5) by after_results_simp).trans h.a5
  a6 := (show StableHlo.after hostOps1 (W2 m ρ c) (Proc.devRef .tc main_arg6) = W2 m ρ c (Proc.devRef .tc main_arg6) by after_results_simp).trans h.a6
  a7 := (show StableHlo.after hostOps1 (W2 m ρ c) (Proc.devRef .tc main_arg7) = W2 m ρ c (Proc.devRef .tc main_arg7) by after_results_simp).trans h.a7
  a8 := (show StableHlo.after hostOps1 (W2 m ρ c) (Proc.devRef .tc main_arg8) = W2 m ρ c (Proc.devRef .tc main_arg8) by after_results_simp).trans h.a8
  a9 := (show StableHlo.after hostOps1 (W2 m ρ c) (Proc.devRef .tc main_arg9) = W2 m ρ c (Proc.devRef .tc main_arg9) by after_results_simp).trans h.a9
  a10 := (show StableHlo.after hostOps1 (W2 m ρ c) (Proc.devRef .tc main_arg10) = W2 m ρ c (Proc.devRef .tc main_arg10) by after_results_simp).trans h.a10
  a11 := (show StableHlo.after hostOps1 (W2 m ρ c) (Proc.devRef .tc main_arg11) = W2 m ρ c (Proc.devRef .tc main_arg11) by after_results_simp).trans h.a11
  a12 := (show StableHlo.after hostOps1 (W2 m ρ c) (Proc.devRef .tc main_arg12) = W2 m ρ c (Proc.devRef .tc main_arg12) by after_results_simp).trans h.a12
  a13 := (show StableHlo.after hostOps1 (W2 m ρ c) (Proc.devRef .tc main_arg13) = W2 m ρ c (Proc.devRef .tc main_arg13) by after_results_simp).trans h.a13
  a14 := (show StableHlo.after hostOps1 (W2 m ρ c) (Proc.devRef .tc main_arg14) = W2 m ρ c (Proc.devRef .tc main_arg14) by after_results_simp).trans h.a14
  v1 := (show StableHlo.after hostOps1 (W2 m ρ c) (Proc.devRef .tc main_v1) = W2 m ρ c (Proc.devRef .tc main_v1) by after_results_simp).trans h.v1
  v3 := (show StableHlo.after hostOps1 (W2 m ρ c) (Proc.devRef .tc main_v3) = W2 m ρ c (Proc.devRef .tc main_v3) by after_results_simp).trans h.v3
  v12 := (show StableHlo.after hostOps1 (W2 m ρ c) (Proc.devRef .tc main_v12) = W2 m ρ c (Proc.devRef .tc main_v12) by after_results_simp).trans h.v12
  v28 := (show StableHlo.after hostOps1 (W2 m ρ c) (Proc.devRef .tc main_v28) = W2 m ρ c (Proc.devRef .tc main_v28) by after_results_simp).trans h.v28

/-- Region 1 writes only its output array: the fifteen buffers are as it found them. -/
theorem region1 (h : Persist (W3 m ρ c) W₀) : Persist (W4 m ρ c) W₀ where
  a2 := (W4_of_ne m ρ c main_arg2 (by decide)).trans h.a2
  a5 := (W4_of_ne m ρ c main_arg5 (by decide)).trans h.a5
  a6 := (W4_of_ne m ρ c main_arg6 (by decide)).trans h.a6
  a7 := (W4_of_ne m ρ c main_arg7 (by decide)).trans h.a7
  a8 := (W4_of_ne m ρ c main_arg8 (by decide)).trans h.a8
  a9 := (W4_of_ne m ρ c main_arg9 (by decide)).trans h.a9
  a10 := (W4_of_ne m ρ c main_arg10 (by decide)).trans h.a10
  a11 := (W4_of_ne m ρ c main_arg11 (by decide)).trans h.a11
  a12 := (W4_of_ne m ρ c main_arg12 (by decide)).trans h.a12
  a13 := (W4_of_ne m ρ c main_arg13 (by decide)).trans h.a13
  a14 := (W4_of_ne m ρ c main_arg14 (by decide)).trans h.a14
  v1 := (W4_of_ne m ρ c main_v1 (by decide)).trans h.v1
  v3 := (W4_of_ne m ρ c main_v3 (by decide)).trans h.v3
  v12 := (W4_of_ne m ρ c main_v12 (by decide)).trans h.v12
  v28 := (W4_of_ne m ρ c main_v28 (by decide)).trans h.v28

/-- No operation of host stretch 2 writes any of the fifteen buffers. -/
theorem host2 (h : Persist (W4 m ρ c) W₀) : Persist (W5 m ρ c) W₀ where
  a2 := (show StableHlo.after hostOps2 (W4 m ρ c) (Proc.devRef .tc main_arg2) = W4 m ρ c (Proc.devRef .tc main_arg2) by after_results_simp).trans h.a2
  a5 := (show StableHlo.after hostOps2 (W4 m ρ c) (Proc.devRef .tc main_arg5) = W4 m ρ c (Proc.devRef .tc main_arg5) by after_results_simp).trans h.a5
  a6 := (show StableHlo.after hostOps2 (W4 m ρ c) (Proc.devRef .tc main_arg6) = W4 m ρ c (Proc.devRef .tc main_arg6) by after_results_simp).trans h.a6
  a7 := (show StableHlo.after hostOps2 (W4 m ρ c) (Proc.devRef .tc main_arg7) = W4 m ρ c (Proc.devRef .tc main_arg7) by after_results_simp).trans h.a7
  a8 := (show StableHlo.after hostOps2 (W4 m ρ c) (Proc.devRef .tc main_arg8) = W4 m ρ c (Proc.devRef .tc main_arg8) by after_results_simp).trans h.a8
  a9 := (show StableHlo.after hostOps2 (W4 m ρ c) (Proc.devRef .tc main_arg9) = W4 m ρ c (Proc.devRef .tc main_arg9) by after_results_simp).trans h.a9
  a10 := (show StableHlo.after hostOps2 (W4 m ρ c) (Proc.devRef .tc main_arg10) = W4 m ρ c (Proc.devRef .tc main_arg10) by after_results_simp).trans h.a10
  a11 := (show StableHlo.after hostOps2 (W4 m ρ c) (Proc.devRef .tc main_arg11) = W4 m ρ c (Proc.devRef .tc main_arg11) by after_results_simp).trans h.a11
  a12 := (show StableHlo.after hostOps2 (W4 m ρ c) (Proc.devRef .tc main_arg12) = W4 m ρ c (Proc.devRef .tc main_arg12) by after_results_simp).trans h.a12
  a13 := (show StableHlo.after hostOps2 (W4 m ρ c) (Proc.devRef .tc main_arg13) = W4 m ρ c (Proc.devRef .tc main_arg13) by after_results_simp).trans h.a13
  a14 := (show StableHlo.after hostOps2 (W4 m ρ c) (Proc.devRef .tc main_arg14) = W4 m ρ c (Proc.devRef .tc main_arg14) by after_results_simp).trans h.a14
  v1 := (show StableHlo.after hostOps2 (W4 m ρ c) (Proc.devRef .tc main_v1) = W4 m ρ c (Proc.devRef .tc main_v1) by after_results_simp).trans h.v1
  v3 := (show StableHlo.after hostOps2 (W4 m ρ c) (Proc.devRef .tc main_v3) = W4 m ρ c (Proc.devRef .tc main_v3) by after_results_simp).trans h.v3
  v12 := (show StableHlo.after hostOps2 (W4 m ρ c) (Proc.devRef .tc main_v12) = W4 m ρ c (Proc.devRef .tc main_v12) by after_results_simp).trans h.v12
  v28 := (show StableHlo.after hostOps2 (W4 m ρ c) (Proc.devRef .tc main_v28) = W4 m ρ c (Proc.devRef .tc main_v28) by after_results_simp).trans h.v28

/-- Region 2 writes only its output array: the fifteen buffers are as it found them. -/
theorem region2 (h : Persist (W5 m ρ c) W₀) : Persist (W6 m ρ c) W₀ where
  a2 := (W6_of_ne m ρ c main_arg2 (by decide)).trans h.a2
  a5 := (W6_of_ne m ρ c main_arg5 (by decide)).trans h.a5
  a6 := (W6_of_ne m ρ c main_arg6 (by decide)).trans h.a6
  a7 := (W6_of_ne m ρ c main_arg7 (by decide)).trans h.a7
  a8 := (W6_of_ne m ρ c main_arg8 (by decide)).trans h.a8
  a9 := (W6_of_ne m ρ c main_arg9 (by decide)).trans h.a9
  a10 := (W6_of_ne m ρ c main_arg10 (by decide)).trans h.a10
  a11 := (W6_of_ne m ρ c main_arg11 (by decide)).trans h.a11
  a12 := (W6_of_ne m ρ c main_arg12 (by decide)).trans h.a12
  a13 := (W6_of_ne m ρ c main_arg13 (by decide)).trans h.a13
  a14 := (W6_of_ne m ρ c main_arg14 (by decide)).trans h.a14
  v1 := (W6_of_ne m ρ c main_v1 (by decide)).trans h.v1
  v3 := (W6_of_ne m ρ c main_v3 (by decide)).trans h.v3
  v12 := ((W6_arr m ρ c 2).trans (((dat2 (V5 m ρ) c).arrAt_in 2 rfl _).trans (A_eq2 (V5 m ρ) c 2))).trans h.v12
  v28 := (W6_of_ne m ρ c main_v28 (by decide)).trans h.v28

/-- No operation of host stretch 3 writes any of the fifteen buffers. -/
theorem host3 (h : Persist (W6 m ρ c) W₀) : Persist (W7 m ρ c) W₀ where
  a2 := (show StableHlo.after hostOps3 (W6 m ρ c) (Proc.devRef .tc main_arg2) = W6 m ρ c (Proc.devRef .tc main_arg2) by after_results_simp).trans h.a2
  a5 := (show StableHlo.after hostOps3 (W6 m ρ c) (Proc.devRef .tc main_arg5) = W6 m ρ c (Proc.devRef .tc main_arg5) by after_results_simp).trans h.a5
  a6 := (show StableHlo.after hostOps3 (W6 m ρ c) (Proc.devRef .tc main_arg6) = W6 m ρ c (Proc.devRef .tc main_arg6) by after_results_simp).trans h.a6
  a7 := (show StableHlo.after hostOps3 (W6 m ρ c) (Proc.devRef .tc main_arg7) = W6 m ρ c (Proc.devRef .tc main_arg7) by after_results_simp).trans h.a7
  a8 := (show StableHlo.after hostOps3 (W6 m ρ c) (Proc.devRef .tc main_arg8) = W6 m ρ c (Proc.devRef .tc main_arg8) by after_results_simp).trans h.a8
  a9 := (show StableHlo.after hostOps3 (W6 m ρ c) (Proc.devRef .tc main_arg9) = W6 m ρ c (Proc.devRef .tc main_arg9) by after_results_simp).trans h.a9
  a10 := (show StableHlo.after hostOps3 (W6 m ρ c) (Proc.devRef .tc main_arg10) = W6 m ρ c (Proc.devRef .tc main_arg10) by after_results_simp).trans h.a10
  a11 := (show StableHlo.after hostOps3 (W6 m ρ c) (Proc.devRef .tc main_arg11) = W6 m ρ c (Proc.devRef .tc main_arg11) by after_results_simp).trans h.a11
  a12 := (show StableHlo.after hostOps3 (W6 m ρ c) (Proc.devRef .tc main_arg12) = W6 m ρ c (Proc.devRef .tc main_arg12) by after_results_simp).trans h.a12
  a13 := (show StableHlo.after hostOps3 (W6 m ρ c) (Proc.devRef .tc main_arg13) = W6 m ρ c (Proc.devRef .tc main_arg13) by after_results_simp).trans h.a13
  a14 := (show StableHlo.after hostOps3 (W6 m ρ c) (Proc.devRef .tc main_arg14) = W6 m ρ c (Proc.devRef .tc main_arg14) by after_results_simp).trans h.a14
  v1 := (show StableHlo.after hostOps3 (W6 m ρ c) (Proc.devRef .tc main_v1) = W6 m ρ c (Proc.devRef .tc main_v1) by after_results_simp).trans h.v1
  v3 := (show StableHlo.after hostOps3 (W6 m ρ c) (Proc.devRef .tc main_v3) = W6 m ρ c (Proc.devRef .tc main_v3) by after_results_simp).trans h.v3
  v12 := (show StableHlo.after hostOps3 (W6 m ρ c) (Proc.devRef .tc main_v12) = W6 m ρ c (Proc.devRef .tc main_v12) by after_results_simp).trans h.v12
  v28 := (show StableHlo.after hostOps3 (W6 m ρ c) (Proc.devRef .tc main_v28) = W6 m ρ c (Proc.devRef .tc main_v28) by after_results_simp).trans h.v28

/-- Region 3 writes only its output array: the fifteen buffers are as it found them. -/
theorem region3 (h : Persist (W7 m ρ c) W₀) : Persist (W8 m ρ c) W₀ where
  a2 := (W8_of_ne m ρ c main_arg2 (by decide)).trans h.a2
  a5 := (W8_of_ne m ρ c main_arg5 (by decide)).trans h.a5
  a6 := (W8_of_ne m ρ c main_arg6 (by decide)).trans h.a6
  a7 := (W8_of_ne m ρ c main_arg7 (by decide)).trans h.a7
  a8 := (W8_of_ne m ρ c main_arg8 (by decide)).trans h.a8
  a9 := (W8_of_ne m ρ c main_arg9 (by decide)).trans h.a9
  a10 := (W8_of_ne m ρ c main_arg10 (by decide)).trans h.a10
  a11 := (W8_of_ne m ρ c main_arg11 (by decide)).trans h.a11
  a12 := (W8_of_ne m ρ c main_arg12 (by decide)).trans h.a12
  a13 := (W8_of_ne m ρ c main_arg13 (by decide)).trans h.a13
  a14 := (W8_of_ne m ρ c main_arg14 (by decide)).trans h.a14
  v1 := (W8_of_ne m ρ c main_v1 (by decide)).trans h.v1
  v3 := (W8_of_ne m ρ c main_v3 (by decide)).trans h.v3
  v12 := (W8_of_ne m ρ c main_v12 (by decide)).trans h.v12
  v28 := (W8_of_ne m ρ c main_v28 (by decide)).trans h.v28

/-- No operation of host stretch 4 writes any of the fifteen buffers. -/
theorem host4 (h : Persist (W8 m ρ c) W₀) : Persist (W9 m ρ c) W₀ where
  a2 := (show StableHlo.after hostOps4 (W8 m ρ c) (Proc.devRef .tc main_arg2) = W8 m ρ c (Proc.devRef .tc main_arg2) by after_results_simp).trans h.a2
  a5 := (show StableHlo.after hostOps4 (W8 m ρ c) (Proc.devRef .tc main_arg5) = W8 m ρ c (Proc.devRef .tc main_arg5) by after_results_simp).trans h.a5
  a6 := (show StableHlo.after hostOps4 (W8 m ρ c) (Proc.devRef .tc main_arg6) = W8 m ρ c (Proc.devRef .tc main_arg6) by after_results_simp).trans h.a6
  a7 := (show StableHlo.after hostOps4 (W8 m ρ c) (Proc.devRef .tc main_arg7) = W8 m ρ c (Proc.devRef .tc main_arg7) by after_results_simp).trans h.a7
  a8 := (show StableHlo.after hostOps4 (W8 m ρ c) (Proc.devRef .tc main_arg8) = W8 m ρ c (Proc.devRef .tc main_arg8) by after_results_simp).trans h.a8
  a9 := (show StableHlo.after hostOps4 (W8 m ρ c) (Proc.devRef .tc main_arg9) = W8 m ρ c (Proc.devRef .tc main_arg9) by after_results_simp).trans h.a9
  a10 := (show StableHlo.after hostOps4 (W8 m ρ c) (Proc.devRef .tc main_arg10) = W8 m ρ c (Proc.devRef .tc main_arg10) by after_results_simp).trans h.a10
  a11 := (show StableHlo.after hostOps4 (W8 m ρ c) (Proc.devRef .tc main_arg11) = W8 m ρ c (Proc.devRef .tc main_arg11) by after_results_simp).trans h.a11
  a12 := (show StableHlo.after hostOps4 (W8 m ρ c) (Proc.devRef .tc main_arg12) = W8 m ρ c (Proc.devRef .tc main_arg12) by after_results_simp).trans h.a12
  a13 := (show StableHlo.after hostOps4 (W8 m ρ c) (Proc.devRef .tc main_arg13) = W8 m ρ c (Proc.devRef .tc main_arg13) by after_results_simp).trans h.a13
  a14 := (show StableHlo.after hostOps4 (W8 m ρ c) (Proc.devRef .tc main_arg14) = W8 m ρ c (Proc.devRef .tc main_arg14) by after_results_simp).trans h.a14
  v1 := (show StableHlo.after hostOps4 (W8 m ρ c) (Proc.devRef .tc main_v1) = W8 m ρ c (Proc.devRef .tc main_v1) by after_results_simp).trans h.v1
  v3 := (show StableHlo.after hostOps4 (W8 m ρ c) (Proc.devRef .tc main_v3) = W8 m ρ c (Proc.devRef .tc main_v3) by after_results_simp).trans h.v3
  v12 := (show StableHlo.after hostOps4 (W8 m ρ c) (Proc.devRef .tc main_v12) = W8 m ρ c (Proc.devRef .tc main_v12) by after_results_simp).trans h.v12
  v28 := (show StableHlo.after hostOps4 (W8 m ρ c) (Proc.devRef .tc main_v28) = W8 m ρ c (Proc.devRef .tc main_v28) by after_results_simp).trans h.v28

/-- Region 4 writes only its output array: the fifteen buffers are as it found them. -/
theorem region4 (h : Persist (W9 m ρ c) W₀) : Persist (W10 m ρ c) W₀ where
  a2 := (W10_of_ne m ρ c main_arg2 (by decide)).trans h.a2
  a5 := (W10_of_ne m ρ c main_arg5 (by decide)).trans h.a5
  a6 := (W10_of_ne m ρ c main_arg6 (by decide)).trans h.a6
  a7 := (W10_of_ne m ρ c main_arg7 (by decide)).trans h.a7
  a8 := (W10_of_ne m ρ c main_arg8 (by decide)).trans h.a8
  a9 := (W10_of_ne m ρ c main_arg9 (by decide)).trans h.a9
  a10 := (W10_of_ne m ρ c main_arg10 (by decide)).trans h.a10
  a11 := (W10_of_ne m ρ c main_arg11 (by decide)).trans h.a11
  a12 := (W10_of_ne m ρ c main_arg12 (by decide)).trans h.a12
  a13 := (W10_of_ne m ρ c main_arg13 (by decide)).trans h.a13
  a14 := (W10_of_ne m ρ c main_arg14 (by decide)).trans h.a14
  v1 := (W10_of_ne m ρ c main_v1 (by decide)).trans h.v1
  v3 := (W10_of_ne m ρ c main_v3 (by decide)).trans h.v3
  v12 := ((W10_arr m ρ c 2).trans (((dat4 (V9 m ρ) c).arrAt_in 2 rfl _).trans (A_eq4 (V9 m ρ) c 2))).trans h.v12
  v28 := (W10_of_ne m ρ c main_v28 (by decide)).trans h.v28

/-- No operation of host stretch 5 writes any of the fifteen buffers. -/
theorem host5 (h : Persist (W10 m ρ c) W₀) : Persist (W11 m ρ c) W₀ where
  a2 := (show StableHlo.after hostOps5 (W10 m ρ c) (Proc.devRef .tc main_arg2) = W10 m ρ c (Proc.devRef .tc main_arg2) by after_results_simp).trans h.a2
  a5 := (show StableHlo.after hostOps5 (W10 m ρ c) (Proc.devRef .tc main_arg5) = W10 m ρ c (Proc.devRef .tc main_arg5) by after_results_simp).trans h.a5
  a6 := (show StableHlo.after hostOps5 (W10 m ρ c) (Proc.devRef .tc main_arg6) = W10 m ρ c (Proc.devRef .tc main_arg6) by after_results_simp).trans h.a6
  a7 := (show StableHlo.after hostOps5 (W10 m ρ c) (Proc.devRef .tc main_arg7) = W10 m ρ c (Proc.devRef .tc main_arg7) by after_results_simp).trans h.a7
  a8 := (show StableHlo.after hostOps5 (W10 m ρ c) (Proc.devRef .tc main_arg8) = W10 m ρ c (Proc.devRef .tc main_arg8) by after_results_simp).trans h.a8
  a9 := (show StableHlo.after hostOps5 (W10 m ρ c) (Proc.devRef .tc main_arg9) = W10 m ρ c (Proc.devRef .tc main_arg9) by after_results_simp).trans h.a9
  a10 := (show StableHlo.after hostOps5 (W10 m ρ c) (Proc.devRef .tc main_arg10) = W10 m ρ c (Proc.devRef .tc main_arg10) by after_results_simp).trans h.a10
  a11 := (show StableHlo.after hostOps5 (W10 m ρ c) (Proc.devRef .tc main_arg11) = W10 m ρ c (Proc.devRef .tc main_arg11) by after_results_simp).trans h.a11
  a12 := (show StableHlo.after hostOps5 (W10 m ρ c) (Proc.devRef .tc main_arg12) = W10 m ρ c (Proc.devRef .tc main_arg12) by after_results_simp).trans h.a12
  a13 := (show StableHlo.after hostOps5 (W10 m ρ c) (Proc.devRef .tc main_arg13) = W10 m ρ c (Proc.devRef .tc main_arg13) by after_results_simp).trans h.a13
  a14 := (show StableHlo.after hostOps5 (W10 m ρ c) (Proc.devRef .tc main_arg14) = W10 m ρ c (Proc.devRef .tc main_arg14) by after_results_simp).trans h.a14
  v1 := (show StableHlo.after hostOps5 (W10 m ρ c) (Proc.devRef .tc main_v1) = W10 m ρ c (Proc.devRef .tc main_v1) by after_results_simp).trans h.v1
  v3 := (show StableHlo.after hostOps5 (W10 m ρ c) (Proc.devRef .tc main_v3) = W10 m ρ c (Proc.devRef .tc main_v3) by after_results_simp).trans h.v3
  v12 := (show StableHlo.after hostOps5 (W10 m ρ c) (Proc.devRef .tc main_v12) = W10 m ρ c (Proc.devRef .tc main_v12) by after_results_simp).trans h.v12
  v28 := (show StableHlo.after hostOps5 (W10 m ρ c) (Proc.devRef .tc main_v28) = W10 m ρ c (Proc.devRef .tc main_v28) by after_results_simp).trans h.v28

/-- Region 5 writes only its output array: the fifteen buffers are as it found them. -/
theorem region5 (h : Persist (W11 m ρ c) W₀) : Persist (W12 m ρ c) W₀ where
  a2 := (W12_of_ne m ρ c main_arg2 (by decide)).trans h.a2
  a5 := (W12_of_ne m ρ c main_arg5 (by decide)).trans h.a5
  a6 := (W12_of_ne m ρ c main_arg6 (by decide)).trans h.a6
  a7 := (W12_of_ne m ρ c main_arg7 (by decide)).trans h.a7
  a8 := (W12_of_ne m ρ c main_arg8 (by decide)).trans h.a8
  a9 := (W12_of_ne m ρ c main_arg9 (by decide)).trans h.a9
  a10 := (W12_of_ne m ρ c main_arg10 (by decide)).trans h.a10
  a11 := (W12_of_ne m ρ c main_arg11 (by decide)).trans h.a11
  a12 := (W12_of_ne m ρ c main_arg12 (by decide)).trans h.a12
  a13 := (W12_of_ne m ρ c main_arg13 (by decide)).trans h.a13
  a14 := (W12_of_ne m ρ c main_arg14 (by decide)).trans h.a14
  v1 := (W12_of_ne m ρ c main_v1 (by decide)).trans h.v1
  v3 := (W12_of_ne m ρ c main_v3 (by decide)).trans h.v3
  v12 := (W12_of_ne m ρ c main_v12 (by decide)).trans h.v12
  v28 := (W12_of_ne m ρ c main_v28 (by decide)).trans h.v28

/-- No operation of host stretch 6 writes any of the fifteen buffers. -/
theorem host6 (h : Persist (W12 m ρ c) W₀) : Persist (W13 m ρ c) W₀ where
  a2 := (show StableHlo.after hostOps6 (W12 m ρ c) (Proc.devRef .tc main_arg2) = W12 m ρ c (Proc.devRef .tc main_arg2) by after_results_simp).trans h.a2
  a5 := (show StableHlo.after hostOps6 (W12 m ρ c) (Proc.devRef .tc main_arg5) = W12 m ρ c (Proc.devRef .tc main_arg5) by after_results_simp).trans h.a5
  a6 := (show StableHlo.after hostOps6 (W12 m ρ c) (Proc.devRef .tc main_arg6) = W12 m ρ c (Proc.devRef .tc main_arg6) by after_results_simp).trans h.a6
  a7 := (show StableHlo.after hostOps6 (W12 m ρ c) (Proc.devRef .tc main_arg7) = W12 m ρ c (Proc.devRef .tc main_arg7) by after_results_simp).trans h.a7
  a8 := (show StableHlo.after hostOps6 (W12 m ρ c) (Proc.devRef .tc main_arg8) = W12 m ρ c (Proc.devRef .tc main_arg8) by after_results_simp).trans h.a8
  a9 := (show StableHlo.after hostOps6 (W12 m ρ c) (Proc.devRef .tc main_arg9) = W12 m ρ c (Proc.devRef .tc main_arg9) by after_results_simp).trans h.a9
  a10 := (show StableHlo.after hostOps6 (W12 m ρ c) (Proc.devRef .tc main_arg10) = W12 m ρ c (Proc.devRef .tc main_arg10) by after_results_simp).trans h.a10
  a11 := (show StableHlo.after hostOps6 (W12 m ρ c) (Proc.devRef .tc main_arg11) = W12 m ρ c (Proc.devRef .tc main_arg11) by after_results_simp).trans h.a11
  a12 := (show StableHlo.after hostOps6 (W12 m ρ c) (Proc.devRef .tc main_arg12) = W12 m ρ c (Proc.devRef .tc main_arg12) by after_results_simp).trans h.a12
  a13 := (show StableHlo.after hostOps6 (W12 m ρ c) (Proc.devRef .tc main_arg13) = W12 m ρ c (Proc.devRef .tc main_arg13) by after_results_simp).trans h.a13
  a14 := (show StableHlo.after hostOps6 (W12 m ρ c) (Proc.devRef .tc main_arg14) = W12 m ρ c (Proc.devRef .tc main_arg14) by after_results_simp).trans h.a14
  v1 := (show StableHlo.after hostOps6 (W12 m ρ c) (Proc.devRef .tc main_v1) = W12 m ρ c (Proc.devRef .tc main_v1) by after_results_simp).trans h.v1
  v3 := (show StableHlo.after hostOps6 (W12 m ρ c) (Proc.devRef .tc main_v3) = W12 m ρ c (Proc.devRef .tc main_v3) by after_results_simp).trans h.v3
  v12 := (show StableHlo.after hostOps6 (W12 m ρ c) (Proc.devRef .tc main_v12) = W12 m ρ c (Proc.devRef .tc main_v12) by after_results_simp).trans h.v12
  v28 := (show StableHlo.after hostOps6 (W12 m ρ c) (Proc.devRef .tc main_v28) = W12 m ρ c (Proc.devRef .tc main_v28) by after_results_simp).trans h.v28

/-- Region 6 writes only its output array: the fifteen buffers are as it found them. -/
theorem region6 (h : Persist (W13 m ρ c) W₀) : Persist (W14 m ρ c) W₀ where
  a2 := (W14_of_ne m ρ c main_arg2 (by decide)).trans h.a2
  a5 := (W14_of_ne m ρ c main_arg5 (by decide)).trans h.a5
  a6 := (W14_of_ne m ρ c main_arg6 (by decide)).trans h.a6
  a7 := (W14_of_ne m ρ c main_arg7 (by decide)).trans h.a7
  a8 := (W14_of_ne m ρ c main_arg8 (by decide)).trans h.a8
  a9 := (W14_of_ne m ρ c main_arg9 (by decide)).trans h.a9
  a10 := (W14_of_ne m ρ c main_arg10 (by decide)).trans h.a10
  a11 := (W14_of_ne m ρ c main_arg11 (by decide)).trans h.a11
  a12 := (W14_of_ne m ρ c main_arg12 (by decide)).trans h.a12
  a13 := (W14_of_ne m ρ c main_arg13 (by decide)).trans h.a13
  a14 := (W14_of_ne m ρ c main_arg14 (by decide)).trans h.a14
  v1 := (W14_of_ne m ρ c main_v1 (by decide)).trans h.v1
  v3 := (W14_of_ne m ρ c main_v3 (by decide)).trans h.v3
  v12 := ((W14_arr m ρ c 2).trans (((dat6 (V13 m ρ) c).arrAt_in 2 rfl _).trans (A_eq6 (V13 m ρ) c 2))).trans h.v12
  v28 := (W14_of_ne m ρ c main_v28 (by decide)).trans h.v28

/-- No operation of host stretch 7 writes any of the fifteen buffers. -/
theorem host7 (h : Persist (W14 m ρ c) W₀) : Persist (W15 m ρ c) W₀ where
  a2 := (show StableHlo.after hostOps7 (W14 m ρ c) (Proc.devRef .tc main_arg2) = W14 m ρ c (Proc.devRef .tc main_arg2) by after_results_simp).trans h.a2
  a5 := (show StableHlo.after hostOps7 (W14 m ρ c) (Proc.devRef .tc main_arg5) = W14 m ρ c (Proc.devRef .tc main_arg5) by after_results_simp).trans h.a5
  a6 := (show StableHlo.after hostOps7 (W14 m ρ c) (Proc.devRef .tc main_arg6) = W14 m ρ c (Proc.devRef .tc main_arg6) by after_results_simp).trans h.a6
  a7 := (show StableHlo.after hostOps7 (W14 m ρ c) (Proc.devRef .tc main_arg7) = W14 m ρ c (Proc.devRef .tc main_arg7) by after_results_simp).trans h.a7
  a8 := (show StableHlo.after hostOps7 (W14 m ρ c) (Proc.devRef .tc main_arg8) = W14 m ρ c (Proc.devRef .tc main_arg8) by after_results_simp).trans h.a8
  a9 := (show StableHlo.after hostOps7 (W14 m ρ c) (Proc.devRef .tc main_arg9) = W14 m ρ c (Proc.devRef .tc main_arg9) by after_results_simp).trans h.a9
  a10 := (show StableHlo.after hostOps7 (W14 m ρ c) (Proc.devRef .tc main_arg10) = W14 m ρ c (Proc.devRef .tc main_arg10) by after_results_simp).trans h.a10
  a11 := (show StableHlo.after hostOps7 (W14 m ρ c) (Proc.devRef .tc main_arg11) = W14 m ρ c (Proc.devRef .tc main_arg11) by after_results_simp).trans h.a11
  a12 := (show StableHlo.after hostOps7 (W14 m ρ c) (Proc.devRef .tc main_arg12) = W14 m ρ c (Proc.devRef .tc main_arg12) by after_results_simp).trans h.a12
  a13 := (show StableHlo.after hostOps7 (W14 m ρ c) (Proc.devRef .tc main_arg13) = W14 m ρ c (Proc.devRef .tc main_arg13) by after_results_simp).trans h.a13
  a14 := (show StableHlo.after hostOps7 (W14 m ρ c) (Proc.devRef .tc main_arg14) = W14 m ρ c (Proc.devRef .tc main_arg14) by after_results_simp).trans h.a14
  v1 := (show StableHlo.after hostOps7 (W14 m ρ c) (Proc.devRef .tc main_v1) = W14 m ρ c (Proc.devRef .tc main_v1) by after_results_simp).trans h.v1
  v3 := (show StableHlo.after hostOps7 (W14 m ρ c) (Proc.devRef .tc main_v3) = W14 m ρ c (Proc.devRef .tc main_v3) by after_results_simp).trans h.v3
  v12 := (show StableHlo.after hostOps7 (W14 m ρ c) (Proc.devRef .tc main_v12) = W14 m ρ c (Proc.devRef .tc main_v12) by after_results_simp).trans h.v12
  v28 := (show StableHlo.after hostOps7 (W14 m ρ c) (Proc.devRef .tc main_v28) = W14 m ρ c (Proc.devRef .tc main_v28) by after_results_simp).trans h.v28

/-! ## At each boundary of the run -/
theorem persist2 : Persist (W2 m ρ c) (W1 m ρ c) := region0 m ρ c (Persist.refl (W1 m ρ c))
theorem persist3 : Persist (W3 m ρ c) (W1 m ρ c) := host1 m ρ c (persist2 m ρ c)
theorem persist4 : Persist (W4 m ρ c) (W1 m ρ c) := region1 m ρ c (persist3 m ρ c)
theorem persist5 : Persist (W5 m ρ c) (W1 m ρ c) := host2 m ρ c (persist4 m ρ c)
theorem persist6 : Persist (W6 m ρ c) (W1 m ρ c) := region2 m ρ c (persist5 m ρ c)
theorem persist7 : Persist (W7 m ρ c) (W1 m ρ c) := host3 m ρ c (persist6 m ρ c)
theorem persist8 : Persist (W8 m ρ c) (W1 m ρ c) := region3 m ρ c (persist7 m ρ c)
theorem persist9 : Persist (W9 m ρ c) (W1 m ρ c) := host4 m ρ c (persist8 m ρ c)
theorem persist10 : Persist (W10 m ρ c) (W1 m ρ c) := region4 m ρ c (persist9 m ρ c)
theorem persist11 : Persist (W11 m ρ c) (W1 m ρ c) := host5 m ρ c (persist10 m ρ c)
theorem persist12 : Persist (W12 m ρ c) (W1 m ρ c) := region5 m ρ c (persist11 m ρ c)
theorem persist13 : Persist (W13 m ρ c) (W1 m ρ c) := host6 m ρ c (persist12 m ρ c)
theorem persist14 : Persist (W14 m ρ c) (W1 m ρ c) := region6 m ρ c (persist13 m ρ c)
theorem persist15 : Persist (W15 m ρ c) (W1 m ρ c) := host7 m ρ c (persist14 m ρ c)

end Cert.KernelIdeal.Chain

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«181907_j87514253623368_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«181907_j87514253623368_1_alg».proof.Proof.LibPlainMatmul
import proofs.«181907_j87514253623368_1_alg».proof.Proof.LibPlainDot
import proofs.«181907_j87514253623368_1_alg».proof.Proof.LibHostRows
import proofs.«181907_j87514253623368_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«181907_j87514253623368_1_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.LibGcnLayers.lean ====
/-
  The layer functions of a graph convolution layer, as whole matrices on the extended reals, for any extents R, K, N,
  beside the dense layers x · W + b and max (x · W + b, 0) of LibDenseLayers:

  * `linLayer H W`  — the bias-free product H · W, entry (r, g) the sum over k of H (r, k) · W (k, g);
  * `updLayer agg hw s b` — the node update max ((agg + hw ∘ s) + b, 0): entry (r, g) adds to the aggregated
    messages agg (r, g) the node's own transformed feature hw (r, g) scaled by its self-loop weight s (r, 0), then the
    bias b (0, g), and rectifies.  The association ((agg + hw·s) + b) is the one both programs compute in, so no law of
    addition is needed to join them.

  Each entry of linLayer / updLayer reads only row r of its row operands: a row block of the result is the same
  function of the row blocks of the operands.  Also here: the host's dot_general over the plain dimension record is
  `linLayer` as a whole matrix (`host_lin_eq`).  The two spellings of `updLayer` (a pipelined kernel body's and a host
  program's) are read at an entry in LibGcnUpdate.
-/
import proofs.«181907_j87514253623368_1_alg».proof.Proof.LibDenseLayers
import proofs.«181907_j87514253623368_1_alg».proof.Proof.LibHostLayers

noncomputable section

open scoped BigOperators

namespace Cert.GcnLayers

open Idealize.ShloMosaic Idealize.ShloMosaic.ValueIdx Cert.SageLayers

variable {R K N : ℕ}

/-- The bias-free product H · W as a whole matrix. -/
def linLayer (H : (⟨2, ![R, K]⟩ : Shape).Idx → EReal) (W : (⟨2, ![K, N]⟩ : Shape).Idx → EReal) :
    (⟨2, ![R, N]⟩ : Shape).Idx → EReal :=
  fun i => dotAt H W (i 0) (i 1)

/-- Entry (r, g) of the node update max ((agg + hw · s) + b, 0). -/
def updAt (agg hw : (⟨2, ![R, N]⟩ : Shape).Idx → EReal) (s : (⟨2, ![R, 1]⟩ : Shape).Idx → EReal)
    (b : (⟨2, ![1, N]⟩ : Shape).Idx → EReal) (r : Fin R) (g : Fin N) : EReal :=
  max ((agg (ix2 r g) + hw (ix2 r g) * s (ix2 r (0 : Fin 1))) + b (ix2 (0 : Fin 1) g)) zeroF

/-- The node update as a whole matrix. -/
def updLayer (agg hw : (⟨2, ![R, N]⟩ : Shape).Idx → EReal) (s : (⟨2, ![R, 1]⟩ : Shape).Idx → EReal)
    (b : (⟨2, ![1, N]⟩ : Shape).Idx → EReal) : (⟨2, ![R, N]⟩ : Shape).Idx → EReal :=
  fun i => updAt agg hw s b (i 0) (i 1)

/-- The host's product as a whole matrix. -/
theorem host_lin_eq (H : FVec Ideal ⟨2, ![R, K]⟩ .f32) (W : FVec Ideal ⟨2, ![K, N]⟩ .f32) :
    Host.dotGeneral (DotDims.plain R K N) none H W = linLayer H W := by
  funext i
  obtain ⟨r, g, rfl⟩ : ∃ (r : Fin R) (g : Fin N), i = ix2 r g := ⟨i 0, i 1, eq_ix2 i⟩
  exact host_dot_at H W r g

end Cert.GcnLayers

end
-- ==== Proof.LibGcnUpdate.lean ====
/-
  The node update max ((agg + hw ∘ s) + b, 0) of a graph convolution layer, read at an entry on the extended reals, in
  the two spellings it has here.

  A pipelined kernel body holds a row block of the aggregated messages agg and of the transformed features hw, the
  matching [R, 1] column block of the self-loop weights s and the whole [1, N] bias row b; it repeats the column along
  the N columns and the row down the R rows, multiplies, adds twice and takes the maximum with the zero matrix.  The host
  program has s and b as vectors, makes the column and the row by a broadcast_in_dim each and repeats them by a second
  one.  A column [R, 1] repeated along the columns reads, at (r, g), the column at (r, 0); a row [1, N] repeated down
  the rows reads the row at (0, g); so both spellings read, at (r, g), as

      max ((agg (r, g) + hw (r, g) · s (r, 0)) + b (0, g), 0),

  the entry `updAt` of `updLayer`.  For any extents R, N.  Also here: a vector made an [R, 1] column by a reshape is
  the column a broadcast_in_dim along axis 0 makes of it (`col_of_vector`).
-/
import proofs.«181907_j87514253623368_1_alg».proof.Proof.LibGcnLayers

noncomputable section

open scoped BigOperators

namespace Cert.GcnLayers

open Idealize.ShloMosaic Idealize.ShloMosaic.ValueIdx Cert.SageLayers

variable {R N : ℕ}

/-- An [R, 1] column repeated along N columns reads, at (r, g), the column at (r, 0). -/
theorem colBroadcast_at {α : Type} (col : (⟨2, ![R, 1]⟩ : Shape).Idx → α)
    (hb : (⟨2, ![R, 1]⟩ : Shape).Broadcasts ⟨2, ![R, N]⟩) (r : Fin R) (g : Fin N) :
    broadcastTo ⟨2, ![R, N]⟩ col hb (ix2 r g) = col (ix2 r (0 : Fin 1)) := by
  refine broadcastTo_apply col hb (ix2 r g) (ix2 r (0 : Fin 1)) (fun a => ?_)
  match a with
  | ⟨0, _⟩ =>
    show r.val = if R = 1 then 0 else r.val
    split_ifs with h
    · have := r.isLt; omega
    · rfl
  | ⟨1, _⟩ => show (0 : ℕ) = if (1 : ℕ) = 1 then 0 else _; rw [if_pos rfl]

/-- The kernel body's spelling of the node update, read at an entry: the identity casts drop, the repeated column is
    read at (r, 0), the repeated row at (0, g). -/
theorem kernel_upd_at (agg hw : FVec Ideal ⟨2, ![R, N]⟩ .f32) (s : FVec Ideal ⟨2, ![R, 1]⟩ .f32)
    (b : FVec Ideal ⟨2, ![1, N]⟩ .f32)
    (h1 : (⟨2, ![R, N]⟩ : Shape).ShapeCasts ⟨2, ![R, N]⟩) (h2 : (⟨2, ![R, N]⟩ : Shape).ShapeCasts ⟨2, ![R, N]⟩)
    (h3 : (⟨2, ![R, 1]⟩ : Shape).ShapeCasts ⟨2, ![R, 1]⟩) (hb3 : (⟨2, ![R, 1]⟩ : Shape).Broadcasts ⟨2, ![R, N]⟩)
    (h4 : (⟨2, ![1, N]⟩ : Shape).ShapeCasts ⟨2, ![1, N]⟩) (hb4 : (⟨2, ![1, N]⟩ : Shape).Broadcasts ⟨2, ![R, N]⟩)
    (r : Fin R) (g : Fin N) :
    maximumf
        (addf
          (addf (shapeCast ⟨2, ![R, N]⟩ agg h1)
            (mulf (shapeCast ⟨2, ![R, N]⟩ hw h2) (broadcastTo ⟨2, ![R, N]⟩ (shapeCast ⟨2, ![R, 1]⟩ s h3) hb3)))
          (broadcastTo ⟨2, ![R, N]⟩ (shapeCast ⟨2, ![1, N]⟩ b h4) hb4))
        (broadcast ⟨2, ![R, N]⟩ (Scalar.ofBits .f32 0x00000000#32)) (ix2 r g)
      = updAt agg hw s b r g := by
  rw [maximumf_apply, addf_apply, addf_apply, mulf_apply, broadcast_apply, colBroadcast_at,
    Cert.LibBlockLayout.rowBroadcast_at, shapeCast_self, shapeCast_self, shapeCast_self, shapeCast_self]
  rfl

/-- The host's spelling of the node update, the self-loop weights and the bias given as vectors: as a whole matrix it is
    the node update of the column and the row the first broadcasts make of them. -/
theorem host_upd_eq (agg hw : FVec Ideal ⟨2, ![R, N]⟩ .f32) (s : FVec Ideal ⟨1, ![R]⟩ .f32) (b : FVec Ideal ⟨1, ![N]⟩ .f32)
    (d3 : Fin (⟨1, ![R]⟩ : Shape).rank → Fin (⟨2, ![R, 1]⟩ : Shape).rank) (hd3 : d3 0 = 0)
    (h3 : (⟨1, ![R]⟩ : Shape).BroadcastsInDim ⟨2, ![R, 1]⟩ d3)
    (d4 : Fin (⟨2, ![R, 1]⟩ : Shape).rank → Fin (⟨2, ![R, N]⟩ : Shape).rank) (hd40 : d4 0 = 0) (hd41 : d4 1 = 1)
    (h4 : (⟨2, ![R, 1]⟩ : Shape).BroadcastsInDim ⟨2, ![R, N]⟩ d4)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf
        (addf
          (addf agg (mulf hw (broadcastInDim ⟨2, ![R, N]⟩ d4 h4 (broadcastInDim ⟨2, ![R, 1]⟩ d3 h3 s))))
          (broadcastInDim ⟨2, ![R, N]⟩ d2 hb2 (broadcastInDim ⟨2, ![1, N]⟩ d1 hb1 b)))
        (broadcastInDim ⟨2, ![R, N]⟩ d0 hb0 (constant (F := Ideal) ⟨0, ![]⟩ .f32 0x00000000#32))
      = updLayer agg hw (broadcastInDim ⟨2, ![R, 1]⟩ d3 h3 s) (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at, addf_apply, addf_apply, mulf_apply,
    Cert.LibHostRows.bcast_a1_ab_at d4 hd40 hd41 h4 _ r g, Cert.LibHostRows.bcast_1b_ab_at d2 hd20 hd21 hb2 _ r g]
  rfl

/-- A vector kept as an [R, 1] column by a reshape is the same column a broadcast_in_dim along axis 0 makes of it: the
    row-major position of (r, 0) among [R, 1] is r. -/
theorem col_of_vector (v : (⟨1, ![R]⟩ : Shape).Idx → EReal)
    (d3 : Fin (⟨1, ![R]⟩ : Shape).rank → Fin (⟨2, ![R, 1]⟩ : Shape).rank) (hd3 : d3 0 = 0)
    (h3 : (⟨1, ![R]⟩ : Shape).BroadcastsInDim ⟨2, ![R, 1]⟩ d3)
    (hc : (⟨1, ![R]⟩ : Shape).ShapeCasts ⟨2, ![R, 1]⟩) :
    broadcastInDim ⟨2, ![R, 1]⟩ d3 h3 v = shapeCast ⟨2, ![R, 1]⟩ v hc := by
  funext i
  obtain ⟨r, u, rfl⟩ : ∃ (r : Fin R) (u : Fin 1), i = ix2 r u := ⟨i 0, i 1, eq_ix2 i⟩
  rw [Cert.LibHostRows.bcast_a_a1_at d3 hd3 h3 v r u]
  refine (shapeCast_apply v hc (ix2 r u) (ix1 r) ?_).symm
  rw [Shape.rowMajor_val_one, Shape.rowMajor_val_two]
  have hu : u.val = 0 := by omega
  show r.val = r.val * 1 + u.val
  rw [hu, Nat.mul_one, Nat.add_zero]

end Cert.GcnLayers

end
-- ==== Proof.Stage0.lean ====
/-
  The first stretch of host operations, read at the buffers the rest of the run uses.  From edge_index it splits the
  source and destination lists, counts each node's incoming edges, adds the self loop, and takes the inverse square
  roots d^(-1/2); the self-loop weight of node n is d_n^(-1/2) · d_n^(-1/2) and the weight of edge e is the product of
  the values gathered at its two ends.  The kernel program keeps the self-loop weights as a [100000, 1] column and
  the edge weights as a [3200000, 1] column made by a reshape; the reference makes the same columns by a
  broadcast_in_dim of the vector along axis 0.  A vector reshaped to a column and the vector broadcast into a column are
  the same column, so each of these buffers holds the reference's stage of the same name of the same arguments.
  It also transposes the encoder's weight and keeps the encoder's bias as a [1, 64] row.
-/
import proofs.«181907_j87514253623368_1_alg».proof.Proof.Gen.KernelIdeal.Frame
import proofs.«181907_j87514253623368_1_alg».proof.Proof.Gen.ReferenceIdeal.Read
import proofs.«181907_j87514253623368_1_alg».proof.Proof.LibGcnUpdate

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read Cert.SageLayers Cert.GcnLayers

variable (m : (ℓ : Loc nD τ sig) → Buf (Elt Ideal) ℓ) (ρ : Dev nD → PrngReg) (c : Dev nD)

/-- Argument 0 is not written by the first stretch. -/
theorem W1_arg0 : W1 m ρ c (Proc.devRef .tc main_arg0) = m ((c : Thread nD τ).loc main_arg0) := by
  show StableHlo.after hostOps0 (W0 m ρ c) (Proc.devRef .tc main_arg0) = _
  after_results_simp <;> rfl
/-- Argument 2 is not written by the first stretch. -/
theorem W1_arg2 : W1 m ρ c (Proc.devRef .tc main_arg2) = m ((c : Thread nD τ).loc main_arg2) := by
  show StableHlo.after hostOps0 (W0 m ρ c) (Proc.devRef .tc main_arg2) = _
  after_results_simp <;> rfl
/-- Argument 5 is not written by the first stretch. -/
theorem W1_arg5 : W1 m ρ c (Proc.devRef .tc main_arg5) = m ((c : Thread nD τ).loc main_arg5) := by
  show StableHlo.after hostOps0 (W0 m ρ c) (Proc.devRef .tc main_arg5) = _
  after_results_simp <;> rfl
/-- Argument 6 is not written by the first stretch. -/
theorem W1_arg6 : W1 m ρ c (Proc.devRef .tc main_arg6) = m ((c : Thread nD τ).loc main_arg6) := by
  show StableHlo.after hostOps0 (W0 m ρ c) (Proc.devRef .tc main_arg6) = _
  after_results_simp <;> rfl
/-- Argument 7 is not written by the first stretch. -/
theorem W1_arg7 : W1 m ρ c (Proc.devRef .tc main_arg7) = m ((c : Thread nD τ).loc main_arg7) := by
  show StableHlo.after hostOps0 (W0 m ρ c) (Proc.devRef .tc main_arg7) = _
  after_results_simp <;> rfl
/-- Argument 8 is not written by the first stretch. -/
theorem W1_arg8 : W1 m ρ c (Proc.devRef .tc main_arg8) = m ((c : Thread nD τ).loc main_arg8) := by
  show StableHlo.after hostOps0 (W0 m ρ c) (Proc.devRef .tc main_arg8) = _
  after_results_simp <;> rfl
/-- Argument 9 is not written by the first stretch. -/
theorem W1_arg9 : W1 m ρ c (Proc.devRef .tc main_arg9) = m ((c : Thread nD τ).loc main_arg9) := by
  show StableHlo.after hostOps0 (W0 m ρ c) (Proc.devRef .tc main_arg9) = _
  after_results_simp <;> rfl
/-- Argument 10 is not written by the first stretch. -/
theorem W1_arg10 : W1 m ρ c (Proc.devRef .tc main_arg10) = m ((c : Thread nD τ).loc main_arg10) := by
  show StableHlo.after hostOps0 (W0 m ρ c) (Proc.devRef .tc main_arg10) = _
  after_results_simp <;> rfl
/-- Argument 11 is not written by the first stretch. -/
theorem W1_arg11 : W1 m ρ c (Proc.devRef .tc main_arg11) = m ((c : Thread nD τ).loc main_arg11) := by
  show StableHlo.after hostOps0 (W0 m ρ c) (Proc.devRef .tc main_arg11) = _
  after_results_simp <;> rfl
/-- Argument 12 is not written by the first stretch. -/
theorem W1_arg12 : W1 m ρ c (Proc.devRef .tc main_arg12) = m ((c : Thread nD τ).loc main_arg12) := by
  show StableHlo.after hostOps0 (W0 m ρ c) (Proc.devRef .tc main_arg12) = _
  after_results_simp <;> rfl
/-- Argument 13 is not written by the first stretch. -/
theorem W1_arg13 : W1 m ρ c (Proc.devRef .tc main_arg13) = m ((c : Thread nD τ).loc main_arg13) := by
  show StableHlo.after hostOps0 (W0 m ρ c) (Proc.devRef .tc main_arg13) = _
  after_results_simp <;> rfl
/-- Argument 14 is not written by the first stretch. -/
theorem W1_arg14 : W1 m ρ c (Proc.devRef .tc main_arg14) = m ((c : Thread nD τ).loc main_arg14) := by
  show StableHlo.after hostOps0 (W0 m ρ c) (Proc.devRef .tc main_arg14) = _
  after_results_simp <;> rfl

/-- The source list. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp <;> rfl

/-- The destination list. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp <;> rfl

/-- The transposed encoder weight. -/
theorem W1_v29 : W1 m ρ c (Proc.devRef .tc main_v29) = val_main_v11 (F := Ideal) (m ((c : Thread nD τ).loc main_arg3)) := by
  show StableHlo.after hostOps0 (W0 m ρ c) (Proc.devRef .tc main_v29) = _
  after_results_simp <;> rfl

/-- The encoder's bias row: a reshape of the vector, which is the vector broadcast along axis 1. -/
theorem W1_v30 : W1 m ρ c (Proc.devRef .tc main_v30) = val_main_v13 (F := Ideal) (m ((c : Thread nD τ).loc main_arg4)) := by
  have h : W1 m ρ c (Proc.devRef .tc main_v30) = shapeCast S1x64 (m ((c : Thread nD τ).loc main_arg4)) shapeCasts_S64_S1x64 := by
    show StableHlo.after hostOps0 (W0 m ρ c) (Proc.devRef .tc main_v30) = _
    after_results_simp <;> rfl
  exact h.trans (row_of_vector (N := 64) (m ((c : Thread nD τ).loc main_arg4)) ![1] rfl Cert.ReferenceIdeal.Gen.bcast_S64_S1x64_1 shapeCasts_S64_S1x64).symm

/-- The self-loop weights as a column. -/
theorem W1_v12 : W1 m ρ c (Proc.devRef .tc main_v12) = val_main_v48 (F := Ideal) (m ((c : Thread nD τ).loc main_arg1)) := by
  have h : W1 m ρ c (Proc.devRef .tc main_v12) = shapeCast S100000x1 (val_main_v47 (F := Ideal) (m ((c : Thread nD τ).loc main_arg1))) shapeCasts_S100000_S100000x1 := by
    show StableHlo.after hostOps0 (W0 m ρ c) (Proc.devRef .tc main_v12) = _
    after_results_simp <;> rfl
  exact h.trans (col_of_vector (R := 100000) (val_main_v47 (F := Ideal) (m ((c : Thread nD τ).loc main_arg1))) ![0] rfl bcast_S100000_S100000x1_0 shapeCasts_S100000_S100000x1).symm

/-- The edge weights as a column. -/
theorem W1_v28 : W1 m ρ c (Proc.devRef .tc main_v28) = val_main_v41 (F := Ideal) (m ((c : Thread nD τ).loc main_arg1)) := by
  have h : W1 m ρ c (Proc.devRef .tc main_v28) = shapeCast S3200000x1 (val_main_v33 (F := Ideal) (m ((c : Thread nD τ).loc main_arg1))) shapeCasts_S3200000_S3200000x1 := by
    show StableHlo.after hostOps0 (W0 m ρ c) (Proc.devRef .tc main_v28) = _
    after_results_simp <;> rfl
  exact h.trans (col_of_vector (R := 3200000) (val_main_v33 (F := Ideal) (m ((c : Thread nD τ).loc main_arg1))) ![0] rfl bcast_S3200000_S3200000x1_0 shapeCasts_S3200000_S3200000x1).symm

end Cert.KernelIdeal.Chain

end
-- ==== Proof.RefStages.lean ====
/-
  The reference program stage by stage, each stage as the layer function it computes on the extended reals.

  The reference spells a dense layer as a dot_general of x with the transposed weight, plus the bias vector made a
  [1, 64] row and repeated down the rows, rectified by a maximum against the zero matrix; a graph-convolution update as
  (aggregated messages + transformed features scaled by the self-loop weight, the weight vector made a column and
  repeated along the 64 features) + bias row, rectified.  Read at an entry these are the layer functions  projLayer,
  linLayer, updLayer, affLayer  (LibDenseLayers, LibGcnLayers): the stages named `val_main_vN` by the generated reading of the
  reference are those functions of the earlier stages.  The scatter-adds and gathers between them are not opened.
  The self-loop weights and the edge weights are recomputed by the reference in every layer from the same degrees: the
  three copies are one function of edge_index.
-/
import proofs.«181907_j87514253623368_1_alg».proof.Proof.Gen.ReferenceIdeal.Read
import proofs.«181907_j87514253623368_1_alg».proof.Proof.LibGcnLayers
import proofs.«181907_j87514253623368_1_alg».proof.Proof.LibGcnUpdate

set_option maxRecDepth 16384

noncomputable section

namespace Cert.ReferenceIdeal.Stages

open Cert.ReferenceIdeal Cert.ReferenceIdeal.Gen Cert.ReferenceIdeal.Read
open Idealize.ShloMosaic Idealize.ShloMosaic.ValueIdx
open Cert.SageLayers Cert.GcnLayers

variable (x0 : (⟨S100000x128, .f32⟩ : BufTy).Contents (Elt Ideal))
  (x1 : (⟨S2x3200000, .i32⟩ : BufTy).Contents (Elt Ideal))
  (x2 : (⟨S100000, .i32⟩ : BufTy).Contents (Elt Ideal))
  (x3 : (⟨S64x128, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S64x64, .f32⟩ : BufTy).Contents (Elt Ideal))
  (x8 : (⟨S64, .f32⟩ : BufTy).Contents (Elt Ideal))
  (x9 : (⟨S64x64, .f32⟩ : BufTy).Contents (Elt Ideal))
  (x10 : (⟨S64, .f32⟩ : BufTy).Contents (Elt Ideal))
  (x11 : (⟨S64x64, .f32⟩ : BufTy).Contents (Elt Ideal))
  (x12 : (⟨S64, .f32⟩ : BufTy).Contents (Elt Ideal))
  (x13 : (⟨S1x64, .f32⟩ : BufTy).Contents (Elt Ideal))
  (x14 : (⟨S1, .f32⟩ : BufTy).Contents (Elt Ideal))

/-- The encoder: max (x · W_encᵀ + b_enc, 0). -/
theorem enc_eq : val_main_v16 (F := Ideal) x0 x3 x4
    = projLayer (R := 100000) (K := 128) (N := 64) x0 (val_main_v11 (F := Ideal) x3) (val_main_v13 (F := Ideal) x4) := by
  unfold val_main_v16 val_main_v15 val_main_v14 val_main_v12 val_main_call0_v0 val_main_call0_cst val_main_v13
  exact host_proj_eq x0 (val_main_v11 (F := Ideal) x3) x4 ![1] rfl bcast_S64_S1x64_1 ![0, 1] rfl rfl bcast_S1x64_S100000x64_0_1 ![] bcast_S_S100000x64

/-- Layer 1's transformed features h · W0ᵀ. -/
theorem lin1_eq : val_main_v18 (F := Ideal) x0 x3 x4 x5 = linLayer (R := 100000) (K := 64) (N := 64) (val_main_v16 (F := Ideal) x0 x3 x4) (val_main_v17 (F := Ideal) x5) := by
  unfold val_main_v18
  exact host_lin_eq _ _

/-- Layer 2's transformed features. -/
theorem lin2_eq : val_main_v57 (F := Ideal) x0 x1 x3 x4 x5 x6 x7 = linLayer (R := 100000) (K := 64) (N := 64) (val_main_v55 (F := Ideal) x0 x1 x3 x4 x5 x6) (val_main_v56 (F := Ideal) x7) := by
  unfold val_main_v57
  exact host_lin_eq _ _

/-- Layer 3's transformed features. -/
theorem lin3_eq : val_main_v96 (F := Ideal) x0 x1 x3 x4 x5 x6 x7 x8 x9 = linLayer (R := 100000) (K := 64) (N := 64) (val_main_v94 (F := Ideal) x0 x1 x3 x4 x5 x6 x7 x8) (val_main_v95 (F := Ideal) x9) := by
  unfold val_main_v96
  exact host_lin_eq _ _

/-- Layer 1's update max ((agg + hw · s) + b0, 0). -/
theorem upd1_eq : val_main_v55 (F := Ideal) x0 x1 x3 x4 x5 x6
    = updLayer (R := 100000) (N := 64) (val_main_v46 (F := Ideal) x0 x1 x3 x4 x5) (val_main_v18 (F := Ideal) x0 x3 x4 x5) (val_main_v48 (F := Ideal) x1) (val_main_v52 (F := Ideal) x6) := by
  unfold val_main_v55 val_main_v54 val_main_v53 val_main_v51 val_main_v50 val_main_v49 val_main_call1_v0 val_main_call1_cst val_main_v48 val_main_v52
  exact host_upd_eq (val_main_v46 (F := Ideal) x0 x1 x3 x4 x5) (val_main_v18 (F := Ideal) x0 x3 x4 x5) (val_main_v47 (F := Ideal) x1) x6
    ![0] rfl bcast_S100000_S100000x1_0 ![0, 1] rfl rfl bcast_S100000x1_S100000x64_0_1
    ![1] rfl bcast_S64_S1x64_1 ![0, 1] rfl rfl bcast_S1x64_S100000x64_0_1 ![] bcast_S_S100000x64

/-- Layer 2's update. -/
theorem upd2_eq : val_main_v94 (F := Ideal) x0 x1 x3 x4 x5 x6 x7 x8
    = updLayer (R := 100000) (N := 64) (val_main_v85 (F := Ideal) x0 x1 x3 x4 x5 x6 x7) (val_main_v57 (F := Ideal) x0 x1 x3 x4 x5 x6 x7) (val_main_v87 (F := Ideal) x1) (val_main_v91 (F := Ideal) x8) := by
  unfold val_main_v94 val_main_v93 val_main_v92 val_main_v90 val_main_v89 val_main_v88 val_main_call2_v0 val_main_call2_cst val_main_v87 val_main_v91
  exact host_upd_eq (val_main_v85 (F := Ideal) x0 x1 x3 x4 x5 x6 x7) (val_main_v57 (F := Ideal) x0 x1 x3 x4 x5 x6 x7) (val_main_v86 (F := Ideal) x1) x8
    ![0] rfl bcast_S100000_S100000x1_0 ![0, 1] rfl rfl bcast_S100000x1_S100000x64_0_1
    ![1] rfl bcast_S64_S1x64_1 ![0, 1] rfl rfl bcast_S1x64_S100000x64_0_1 ![] bcast_S_S100000x64

/-- Layer 3's update. -/
theorem upd3_eq : val_main_v133 (F := Ideal) x0 x1 x3 x4 x5 x6 x7 x8 x9 x10
    = updLayer (R := 100000) (N := 64) (val_main_v124 (F := Ideal) x0 x1 x3 x4 x5 x6 x7 x8 x9) (val_main_v96 (F := Ideal) x0 x1 x3 x4 x5 x6 x7 x8 x9) (val_main_v126 (F := Ideal) x1) (val_main_v130 (F := Ideal) x10) := by
  unfold val_main_v133 val_main_v132 val_main_v131 val_main_v129 val_main_v128 val_main_v127 val_main_call3_v0 val_main_call3_cst val_main_v126 val_main_v130
  exact host_upd_eq (val_main_v124 (F := Ideal) x0 x1 x3 x4 x5 x6 x7 x8 x9) (val_main_v96 (F := Ideal) x0 x1 x3 x4 x5 x6 x7 x8 x9) (val_main_v125 (F := Ideal) x1) x10
    ![0] rfl bcast_S100000_S100000x1_0 ![0, 1] rfl rfl bcast_S100000x1_S100000x64_0_1
    ![1] rfl bcast_S64_S1x64_1 ![0, 1] rfl rfl bcast_S1x64_S100000x64_0_1 ![] bcast_S_S100000x64

/-- The head: (max (pooled · Wf1ᵀ + bf1, 0)) · Wf2ᵀ + bf2. -/
theorem head_eq : val_main_v156 (F := Ideal) x0 x1 x2 x3 x4 x5 x6 x7 x8 x9 x10 x11 x12 x13 x14
    = affLayer (R := 1024) (K := 64) (N := 1) (projLayer (R := 1024) (K := 64) (N := 64) (val_main_v145 (F := Ideal) x0 x1 x2 x3 x4 x5 x6 x7 x8 x9 x10) (val_main_v146 (F := Ideal) x11) (val_main_v148 (F := Ideal) x12))
        (val_main_v152 (F := Ideal) x13) (val_main_v154 (F := Ideal) x14) := by
  have h151 : val_main_v151 (F := Ideal) x0 x1 x2 x3 x4 x5 x6 x7 x8 x9 x10 x11 x12 = projLayer (R := 1024) (K := 64) (N := 64) (val_main_v145 (F := Ideal) x0 x1 x2 x3 x4 x5 x6 x7 x8 x9 x10) (val_main_v146 (F := Ideal) x11) (val_main_v148 (F := Ideal) x12) := by
    unfold val_main_v151 val_main_v150 val_main_v149 val_main_v147 val_main_call4_v0 val_main_call4_cst val_main_v148
    exact host_proj_eq (val_main_v145 (F := Ideal) x0 x1 x2 x3 x4 x5 x6 x7 x8 x9 x10) (val_main_v146 (F := Ideal) x11) x12 ![1] rfl bcast_S64_S1x64_1 ![0, 1] rfl rfl bcast_S1x64_S1024x64_0_1 ![] bcast_S_S1024x64
  unfold val_main_v156 val_main_v155 val_main_v153
  rw [h151]
  unfold val_main_v154
  exact host_aff_eq _ (val_main_v152 (F := Ideal) x13) x14 ![1] rfl bcast_S1_S1x1_1 ![0, 1] rfl rfl bcast_S1x1_S1024x1_0_1

/-- The self-loop weights of layers 2 and 3 are layer 1's: the same function of edge_index. -/
theorem sn2_eq : val_main_v87 (F := Ideal) x1 = val_main_v48 (F := Ideal) x1 := by
  unfold val_main_v87 val_main_v86 val_main_v48 val_main_v47
  rfl
theorem sn3_eq : val_main_v126 (F := Ideal) x1 = val_main_v48 (F := Ideal) x1 := by
  unfold val_main_v126 val_main_v125 val_main_v48 val_main_v47
  rfl

/-! ## The stretches both programs share: message passing and mean pooling

  Between the dense layers both programs gather the transformed features of every edge's source node, scale them by
  the edge weight, and add them up at the edge's destination node; and after the last layer they add up the node
  features of every graph and divide by the number of its nodes (at least one).  These stretches are carried as ONE
  function each, of the node features and of the index arrays; neither the gather nor the scatter-add is opened. -/

/-- Aggregated messages: the scatter-add over destination nodes of the gathered source features times the edge weight. -/
def aggR (hw : (⟨S100000x64, .f32⟩ : BufTy).Contents (Elt Ideal)) (s d : (⟨S3200000, .i32⟩ : BufTy).Contents (Elt Ideal))
    (en : (⟨S3200000x1, .f32⟩ : BufTy).Contents (Elt Ideal)) : (⟨S100000x64, .f32⟩ : BufTy).Contents (Elt Ideal) :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 d)
    (mulf (Host.gather gather_S100000x64_S3200000x1_S3200000x64_1_0_n_n_0_1_164 hw
        (broadcastInDim S3200000x1 ![0] bcast_S3200000_S3200000x1_0
          (select (cmpi .slt s (broadcastInDim S3200000 ![] bcast_S_S3200000 (constantI S_ 32 0#32)))
            (addi s (broadcastInDim S3200000 ![] bcast_S_S3200000 (constantI S_ 32 100000#32))) s)))
      (broadcastInDim S3200000x64 ![0, 1] bcast_S3200000x1_S3200000x64_0_1 en))

/-- Mean pooling over graphs: per-graph sums divided by the per-graph node counts, the counts at least one. -/
def poolR (h : (⟨S100000x64, .f32⟩ : BufTy).Contents (Elt Ideal)) (g : (⟨S100000, .i32⟩ : BufTy).Contents (Elt Ideal)) :
    (⟨S1024x64, .f32⟩ : BufTy).Contents (Elt Ideal) :=
  Host.divf
    (Host.scatterAdd scatter_S1024x64_S100000x1_S100000x64_1_0_0_1
      (broadcastInDim S1024x64 ![] bcast_S_S1024x64 (constant (F := Ideal) S_ .f32 0x00000000#32))
      (broadcastInDim S100000x1 ![0] bcast_S100000_S100000x1_0 g) h)
    (broadcastInDim S1024x64 ![0, 1] bcast_S1024x1_S1024x64_0_1
      (broadcastInDim S1024x1 ![0] bcast_S1024_S1024x1_0
        (maximumf
          (Host.scatterAdd scatter_S1024_S100000x1_S100000_n_0_0_1
            (broadcastInDim S1024 ![] bcast_S_S1024 (constant (F := Ideal) S_ .f32 0x00000000#32))
            (broadcastInDim S100000x1 ![0] bcast_S100000_S100000x1_0 g)
            (broadcastInDim S100000 ![] bcast_S_S100000 (constant (F := Ideal) S_ .f32 0x3F800000#32)))
          (broadcastInDim S1024 ![] bcast_S_S1024 (constant (F := Ideal) S_ .f32 0x3F800000#32)))))

/-- Layer 1's aggregated messages. -/
theorem agg1_eq : val_main_v46 (F := Ideal) x0 x1 x3 x4 x5 = aggR (val_main_v18 (F := Ideal) x0 x3 x4 x5) (val_main_v1 (F := Ideal) x1) (val_main_v3 (F := Ideal) x1) (val_main_v41 (F := Ideal) x1) := by
  unfold val_main_v46 val_main_v45 val_main_v44 val_main_v43 val_main_v42 val_main_v40 val_main_v39 val_main_v38 val_main_v37
    val_main_v36 val_main_v35 val_main_v34 val_main_cst_7 val_main_c_6 val_main_c_5
  rfl

/-- Layer 2's aggregated messages. -/
theorem agg2_eq : val_main_v85 (F := Ideal) x0 x1 x3 x4 x5 x6 x7 = aggR (val_main_v57 (F := Ideal) x0 x1 x3 x4 x5 x6 x7) (val_main_v1 (F := Ideal) x1) (val_main_v3 (F := Ideal) x1) (val_main_v80 (F := Ideal) x1) := by
  unfold val_main_v85 val_main_v84 val_main_v83 val_main_v82 val_main_v81 val_main_v79 val_main_v78 val_main_v77 val_main_v76
    val_main_v75 val_main_v74 val_main_v73 val_main_cst_14 val_main_c_13 val_main_c_12
  rfl

/-- Layer 3's aggregated messages. -/
theorem agg3_eq : val_main_v124 (F := Ideal) x0 x1 x3 x4 x5 x6 x7 x8 x9 = aggR (val_main_v96 (F := Ideal) x0 x1 x3 x4 x5 x6 x7 x8 x9) (val_main_v1 (F := Ideal) x1) (val_main_v3 (F := Ideal) x1) (val_main_v119 (F := Ideal) x1) := by
  unfold val_main_v124 val_main_v123 val_main_v122 val_main_v121 val_main_v120 val_main_v118 val_main_v117 val_main_v116 val_main_v115
    val_main_v114 val_main_v113 val_main_v112 val_main_cst_21 val_main_c_20 val_main_c_19
  rfl

/-- The pooled features. -/
theorem pool_eq : val_main_v145 (F := Ideal) x0 x1 x2 x3 x4 x5 x6 x7 x8 x9 x10 = poolR (val_main_v133 (F := Ideal) x0 x1 x3 x4 x5 x6 x7 x8 x9 x10) x2 := by
  unfold val_main_v145 val_main_v144 val_main_v143 val_main_v142 val_main_v141 val_main_v140 val_main_v139 val_main_v138 val_main_v137
    val_main_v136 val_main_v135 val_main_v134 val_main_cst_25 val_main_cst_24 val_main_cst_23 val_main_cst_22
  rfl

/-- The edge weights of layers 2 and 3 are layer 1's: the same function of edge_index. -/
theorem en2_eq : val_main_v80 (F := Ideal) x1 = val_main_v41 (F := Ideal) x1 := by
  unfold val_main_v80 val_main_v72 val_main_v71 val_main_v70 val_main_v69 val_main_v68 val_main_v67 val_main_v66 val_main_v65 val_main_v64
    val_main_v63 val_main_v62 val_main_v61 val_main_v60 val_main_v59 val_main_v58 val_main_c_11 val_main_c_10 val_main_c_9 val_main_c_8
    val_main_v41 val_main_v33 val_main_v32 val_main_v31 val_main_v30 val_main_v29 val_main_v28 val_main_v27 val_main_v26 val_main_v25
    val_main_v24 val_main_v23 val_main_v22 val_main_v21 val_main_v20 val_main_v19 val_main_c_4 val_main_c_3 val_main_c_2 val_main_c
  rfl
theorem en3_eq : val_main_v119 (F := Ideal) x1 = val_main_v41 (F := Ideal) x1 := by
  unfold val_main_v119 val_main_v111 val_main_v110 val_main_v109 val_main_v108 val_main_v107 val_main_v106 val_main_v105 val_main_v104 val_main_v103
    val_main_v102 val_main_v101 val_main_v100 val_main_v99 val_main_v98 val_main_v97 val_main_c_18 val_main_c_17 val_main_c_16 val_main_c_15
    val_main_v41 val_main_v33 val_main_v32 val_main_v31 val_main_v30 val_main_v29 val_main_v28 val_main_v27 val_main_v26 val_main_v25
    val_main_v24 val_main_v23 val_main_v22 val_main_v21 val_main_v20 val_main_v19 val_main_c_4 val_main_c_3 val_main_c_2 val_main_c
  rfl

end Cert.ReferenceIdeal.Stages

end
-- ==== Proof.HostStages.lean ====
/-
  The host stretches between the kernels, read at the buffers the next kernel uses, over ANY contents W of the buffers
  when the stretch starts.

  Before each of the three transformed-feature products the host transposes the layer's weight.  Before each node update
  it aggregates the messages — gathers the transformed features at every edge's source node, scales them by the edge
  weight, and adds them up at the edge's destination node — and keeps the layer's bias as a [1, 64] row.  Before the head
  it pools the node features per graph (sums divided by node counts, the counts at least one), transposes the head's two
  weights and keeps its two biases as rows.  Each of these buffers holds the reference's stage of the same name of the
  buffers the stretch reads: the operations are the same, except that the kernel program makes a bias row by a reshape
  where the reference broadcasts the vector along axis 1, and a vector reshaped to a row and the vector broadcast into a
  row are the same row.  The buffers a stretch does not write keep their contents.
-/
import proofs.«181907_j87514253623368_1_alg».proof.Proof.Gen.KernelIdeal.Frame
import proofs.«181907_j87514253623368_1_alg».proof.Proof.RefStages
import proofs.«181907_j87514253623368_1_alg».proof.Proof.LibGcnUpdate

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read Cert.ReferenceIdeal.Stages Cert.SageLayers Cert.GcnLayers

variable (W : Valuation τ sig (Elt Ideal))

/-! ## Before the products h · Wᵀ (stretches 1, 3, 5): the weight transposed -/

/-- Layer 1's weight, transposed. -/
theorem host1_v32 : StableHlo.after hostOps1 W (Proc.devRef .tc main_v32) = val_main_v17 (F := Ideal) (W (Proc.devRef .tc main_arg5)) := by
  after_results_simp <;> rfl

/-- The encoder's output is not written by stretch 1. -/
theorem host1_v31 : StableHlo.after hostOps1 W (Proc.devRef .tc main_v31) = W (Proc.devRef .tc main_v31) := by
  after_results_simp <;> rfl

/-- Layer 2's weight, transposed. -/
theorem host3_v48 : StableHlo.after hostOps3 W (Proc.devRef .tc main_v48) = val_main_v56 (F := Ideal) (W (Proc.devRef .tc main_arg7)) := by
  after_results_simp <;> rfl

/-- Layer 1's output is not written by stretch 3. -/
theorem host3_v47 : StableHlo.after hostOps3 W (Proc.devRef .tc main_v47) = W (Proc.devRef .tc main_v47) := by
  after_results_simp <;> rfl

/-- Layer 3's weight, transposed. -/
theorem host5_v64 : StableHlo.after hostOps5 W (Proc.devRef .tc main_v64) = val_main_v95 (F := Ideal) (W (Proc.devRef .tc main_arg9)) := by
  after_results_simp <;> rfl

/-- Layer 2's output is not written by stretch 5. -/
theorem host5_v63 : StableHlo.after hostOps5 W (Proc.devRef .tc main_v63) = W (Proc.devRef .tc main_v63) := by
  after_results_simp <;> rfl

/-! ## Before the node updates (stretches 2, 4, 6): the aggregated messages and the bias row -/

/-- The aggregated messages of this layer: the reference's scatter-add of the gathered, weighted source features, of the
    transformed features this stretch finds and of the source list, destination list and edge weights. -/
theorem host2_v45 : StableHlo.after hostOps2 W (Proc.devRef .tc main_v45)
    = aggR (W (Proc.devRef .tc main_v33)) (W (Proc.devRef .tc main_v1)) (W (Proc.devRef .tc main_v3)) (W (Proc.devRef .tc main_v28)) := by
  unfold aggR
  after_results_simp <;> rfl

/-- Layer 1's bias row: a reshape of the vector, which is the vector broadcast along axis 1. -/
theorem host2_v46 : StableHlo.after hostOps2 W (Proc.devRef .tc main_v46) = val_main_v52 (F := Ideal) (W (Proc.devRef .tc main_arg6)) := by
  have h : StableHlo.after hostOps2 W (Proc.devRef .tc main_v46) = shapeCast S1x64 (W (Proc.devRef .tc main_arg6)) shapeCasts_S64_S1x64 := by
    after_results_simp <;> rfl
  exact h.trans (row_of_vector (N := 64) (W (Proc.devRef .tc main_arg6)) ![1] rfl Cert.ReferenceIdeal.Gen.bcast_S64_S1x64_1 shapeCasts_S64_S1x64).symm

/-- Layer 1's transformed features are not written by stretch 2. -/
theorem host2_v33 : StableHlo.after hostOps2 W (Proc.devRef .tc main_v33) = W (Proc.devRef .tc main_v33) := by
  after_results_simp <;> rfl

/-- The self-loop weight column is not written by stretch 2. -/
theorem host2_v12 : StableHlo.after hostOps2 W (Proc.devRef .tc main_v12) = W (Proc.devRef .tc main_v12) := by
  after_results_simp <;> rfl

/-- The aggregated messages of this layer: the reference's scatter-add of the gathered, weighted source features, of the
    transformed features this stretch finds and of the source list, destination list and edge weights. -/
theorem host4_v61 : StableHlo.after hostOps4 W (Proc.devRef .tc main_v61)
    = aggR (W (Proc.devRef .tc main_v49)) (W (Proc.devRef .tc main_v1)) (W (Proc.devRef .tc main_v3)) (W (Proc.devRef .tc main_v28)) := by
  unfold aggR
  after_results_simp <;> rfl

/-- Layer 2's bias row: a reshape of the vector, which is the vector broadcast along axis 1. -/
theorem host4_v62 : StableHlo.after hostOps4 W (Proc.devRef .tc main_v62) = val_main_v91 (F := Ideal) (W (Proc.devRef .tc main_arg8)) := by
  have h : StableHlo.after hostOps4 W (Proc.devRef .tc main_v62) = shapeCast S1x64 (W (Proc.devRef .tc main_arg8)) shapeCasts_S64_S1x64 := by
    after_results_simp <;> rfl
  exact h.trans (row_of_vector (N := 64) (W (Proc.devRef .tc main_arg8)) ![1] rfl Cert.ReferenceIdeal.Gen.bcast_S64_S1x64_1 shapeCasts_S64_S1x64).symm

/-- Layer 2's transformed features are not written by stretch 4. -/
theorem host4_v49 : StableHlo.after hostOps4 W (Proc.devRef .tc main_v49) = W (Proc.devRef .tc main_v49) := by
  after_results_simp <;> rfl

/-- The self-loop weight column is not written by stretch 4. -/
theorem host4_v12 : StableHlo.after hostOps4 W (Proc.devRef .tc main_v12) = W (Proc.devRef .tc main_v12) := by
  after_results_simp <;> rfl

/-- The aggregated messages of this layer: the reference's scatter-add of the gathered, weighted source features, of the
    transformed features this stretch finds and of the source list, destination list and edge weights. -/
theorem host6_v77 : StableHlo.after hostOps6 W (Proc.devRef .tc main_v77)
    = aggR (W (Proc.devRef .tc main_v65)) (W (Proc.devRef .tc main_v1)) (W (Proc.devRef .tc main_v3)) (W (Proc.devRef .tc main_v28)) := by
  unfold aggR
  after_results_simp <;> rfl

/-- Layer 3's bias row: a reshape of the vector, which is the vector broadcast along axis 1. -/
theorem host6_v78 : StableHlo.after hostOps6 W (Proc.devRef .tc main_v78) = val_main_v130 (F := Ideal) (W (Proc.devRef .tc main_arg10)) := by
  have h : StableHlo.after hostOps6 W (Proc.devRef .tc main_v78) = shapeCast S1x64 (W (Proc.devRef .tc main_arg10)) shapeCasts_S64_S1x64 := by
    after_results_simp <;> rfl
  exact h.trans (row_of_vector (N := 64) (W (Proc.devRef .tc main_arg10)) ![1] rfl Cert.ReferenceIdeal.Gen.bcast_S64_S1x64_1 shapeCasts_S64_S1x64).symm

/-- Layer 3's transformed features are not written by stretch 6. -/
theorem host6_v65 : StableHlo.after hostOps6 W (Proc.devRef .tc main_v65) = W (Proc.devRef .tc main_v65) := by
  after_results_simp <;> rfl

/-- The self-loop weight column is not written by stretch 6. -/
theorem host6_v12 : StableHlo.after hostOps6 W (Proc.devRef .tc main_v12) = W (Proc.devRef .tc main_v12) := by
  after_results_simp <;> rfl

/-! ## Before the head (stretch 7): the pooled features, the two weights transposed, the two biases as rows -/

/-- The pooled features: per-graph sums of the node features divided by the per-graph node counts. -/
theorem host7_v91 : StableHlo.after hostOps7 W (Proc.devRef .tc main_v91) = poolR (W (Proc.devRef .tc main_v79)) (W (Proc.devRef .tc main_arg2)) := by
  unfold poolR
  after_results_simp <;> rfl

/-- The head's first weight, transposed. -/
theorem host7_v92 : StableHlo.after hostOps7 W (Proc.devRef .tc main_v92) = val_main_v146 (F := Ideal) (W (Proc.devRef .tc main_arg11)) := by
  after_results_simp <;> rfl

/-- The head's first bias row: a reshape of the vector, which is the vector broadcast along axis 1. -/
theorem host7_v93 : StableHlo.after hostOps7 W (Proc.devRef .tc main_v93) = val_main_v148 (F := Ideal) (W (Proc.devRef .tc main_arg12)) := by
  have h : StableHlo.after hostOps7 W (Proc.devRef .tc main_v93) = shapeCast S1x64 (W (Proc.devRef .tc main_arg12)) shapeCasts_S64_S1x64 := by
    after_results_simp <;> rfl
  exact h.trans (row_of_vector (N := 64) (W (Proc.devRef .tc main_arg12)) ![1] rfl Cert.ReferenceIdeal.Gen.bcast_S64_S1x64_1 shapeCasts_S64_S1x64).symm

/-- The head's second weight, transposed. -/
theorem host7_v94 : StableHlo.after hostOps7 W (Proc.devRef .tc main_v94) = val_main_v152 (F := Ideal) (W (Proc.devRef .tc main_arg13)) := by
  after_results_simp <;> rfl

/-- The head's second bias, a [1, 1] row: a reshape of the one-entry vector, which is the vector broadcast along axis 1. -/
theorem host7_v95 : StableHlo.after hostOps7 W (Proc.devRef .tc main_v95) = val_main_v154 (F := Ideal) (W (Proc.devRef .tc main_arg14)) := by
  have h : StableHlo.after hostOps7 W (Proc.devRef .tc main_v95) = shapeCast S1x1 (W (Proc.devRef .tc main_arg14)) shapeCasts_S1_S1x1 := by
    after_results_simp <;> rfl
  exact h.trans (row_of_vector (N := 1) (W (Proc.devRef .tc main_arg14)) ![1] rfl Cert.ReferenceIdeal.Gen.bcast_S1_S1x1_1 shapeCasts_S1_S1x1).symm

end Cert.KernelIdeal.Chain

end
-- ==== Proof.Reg0.lean ====
/-
  Region 0 of the idealized kernel: the node encoder  h = max (x · Wᵀ + b, 0)  over 100000 rows, computed in 20 row
  blocks of 5000.  Point t of the grid loads rows 5000 t … 5000 t + 4999 of x, the whole transposed weight and the bias
  row, and writes back the same rows of the result.  Entry (r, g) of the layer reads only row r of x, so block t of the
  whole-matrix layer is the layer of block t of x: every point writes back its block of ONE matrix, the blocks tile the
  100000 rows, and the array ends holding that matrix.
-/
import proofs.«181907_j87514253623368_1_alg».proof.Proof.Gen.KernelIdeal.Frame
import proofs.«181907_j87514253623368_1_alg».proof.Proof.LibGcnLayers

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, g) of a block: the rectified dense layer of the loaded blocks. -/
theorem pay_at (x0 : Vec Ideal S5000x128 .f32) (x1 : Vec Ideal S128x64 .f32) (x2 : Vec Ideal S1x64 .f32) (p : Fin 5000) (g : Fin 64) :
    k0_pay1 (F := Ideal) x0 x1 x2 (ix2 p g) = max (affineAt (R := 5000) (K := 128) (N := 64) x0 x1 x2 p g) zeroF := by
  unfold k0_pay1
  refine (maximumf_apply _ _ _).trans ?_
  refine congrArg₂ max ?_ rfl
  refine (kernel_affine_at (R := 5000) (K := 128) (N := 64) x0 (shapeCast S128x64 x1 shapeCasts_S128x64_S128x64) x2
    bitsLt_bf16_f32 bitsLt_bf16_f32 shapeCasts_S1x64_S1x64 broadcasts_S1x64_S5000x64 p g).trans ?_
  rw [shapeCast_self]

/-- The printed index maps over the grid: the row windows sit at block row t, the weight and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem tlt (t : Fin cfg0.N) : t.val < 20 := by have := t.isLt; have h : cfg0.N = 20 := N_0; omega

/-- Row p of block t is row 5000 t + p of the array. -/
def row (t : Fin cfg0.N) (p : Fin 5000) : Fin 100000 := ⟨t.val * 5000 + p.val, by have := tlt t; have := p.isLt; omega⟩

/-- Block t of x, at (p, k), is x at (5000 t + p, k). -/
theorem read0 (c : Dev nD) (t : Fin cfg0.N) (p : Fin 5000) (k : Fin 128) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight's block is the whole weight. -/
theorem read1 (c : Dev nD) (t : Fin cfg0.N) (k : Fin 128) (g : Fin 64) :
    iblk0 V c 1 t (ix2 k g) = V c main_v29 (ix2 k g) := by
  obtain ⟨-, -, e0, e1, -⟩ := idx_facts t
  show V c main_v29 (((cfg0.win 1).blk t).view.emb (ix2 k g)) = V c main_v29 (ix2 k g)
  refine congrArg (V c main_v29) (funext fun a => Fin.ext ?_)
  match a with
  | ⟨0, _⟩ => show win0_1.index t (0 : Fin 2) * 128 + 1 * k.val = k.val; omega
  | ⟨1, _⟩ => show win0_1.index t (1 : Fin 2) * 64 + 1 * g.val = g.val; omega

/-- The bias row's block is the whole row. -/
theorem read2 (c : Dev nD) (t : Fin cfg0.N) (u : Fin 1) (g : Fin 64) :
    iblk0 V c 2 t (ix2 u g) = V c main_v30 (ix2 u g) := by
  obtain ⟨-, -, -, -, e0, e1, -⟩ := idx_facts t
  show V c main_v30 (((cfg0.win 2).blk t).view.emb (ix2 u g)) = V c main_v30 (ix2 u g)
  refine congrArg (V c main_v30) (funext fun a => Fin.ext ?_)
  match a with
  | ⟨0, _⟩ => show win0_2.index t (0 : Fin 2) * 1 + 1 * u.val = u.val; omega
  | ⟨1, _⟩ => show win0_2.index t (1 : Fin 2) * 64 + 1 * g.val = g.val; omega

/-- Entry (p, g) of the result's block t sits at (5000 t + p, g) of the array. -/
theorem emb3 (t : Fin cfg0.N) (p : Fin 5000) (g : Fin 64) :
    ((cfg0.win 3).blk t).view.emb (ix2 p g) = (ix2 (row t p) g : S100000x64.Idx) := by
  obtain ⟨-, -, -, -, -, -, e0, e1⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 64 + 1 * g.val = g.val; omega

/-- What point t writes back is block t of the encoder layer of the arrays as the region finds them. -/
theorem flushed_eq (c : Dev nD) (t : Fin cfg0.N) :
    (dat0 (F := Ideal) V c).flushed 3 t = ((cfg0.win 3).blk t).view.read (Elt Ideal)
      (projLayer (R := 100000) (K := 128) (N := 64) (V c main_arg0) (V c main_v29) (V c main_v30)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x64) hz, View.ld_unit_zero (S := S1x64) hz]
  funext j
  obtain ⟨p, g, rfl⟩ : ∃ (p : Fin 5000) (g : Fin 64), j = ix2 p g := ⟨j 0, j 1, eq_ix2 j⟩
  show k0_pay1 (F := Ideal) (iblk0 V c 0 t) (iblk0 V c 1 t) (iblk0 V c 2 t) (ix2 p g)
    = projLayer (R := 100000) (K := 128) (N := 64) (V c main_arg0) (V c main_v29) (V c main_v30) (((cfg0.win 3).blk t).view.emb (ix2 p g))
  rw [emb3 t p g]
  refine (pay_at _ _ _ p g).trans ?_
  show max (affineAt (R := 5000) (K := 128) (N := 64) (iblk0 V c 0 t) (iblk0 V c 1 t) (iblk0 V c 2 t) p g) zeroF
    = max (affineAt (R := 100000) (K := 128) (N := 64) (V c main_arg0) (V c main_v29) (V c main_v30) (row t p) g) zeroF
  unfold affineAt
  simp only [read0, read1, read2]

/-- An index of the array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v31).slice (win0_3.rect t)).set ↔ _
  rw [View.set_slice_whole, Rect.mem_set_unit]
  exact Iff.rfl

/-- Every block row is some point's. -/
theorem idx_onto : ∀ q : Fin 20, ∃ t : Fin cfg0.N, win0_3.index t = ![q.val, 0] :=
  (by decide +kernel : ∀ q : Fin 20, ∃ t : Fin grid0.N, win0_3.index t = ![q.val, 0])

/-- The 20 blocks of 5000 rows tile the 100000 rows: row r is in block r / 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The encoder's array after the region: the rectified dense layer of the arrays the region found. -/
theorem final0 (c : Dev nD) : (dat0 (F := Ideal) V c).arrAt 3 cfg0.N
    = projLayer (R := 100000) (K := 128) (N := 64) (V c main_arg0) (V c main_v29) (V c main_v30) :=
  (dat0 (F := Ideal) V c).arrAt_eq_of_cover 3 _ (fun t _ => flushed_eq V c t) cover

end Cert.KernelIdeal.Reg0

end
-- ==== Proof.Reg1.lean ====
/-
  Region 1 of the idealized kernel: the bias-free product  H · W  of a graph convolution, H : [100000, 64] and
  W : [64, 64], computed in 20 row blocks of 5000.  Point t of the grid loads rows 5000 t … 5000 t + 4999 of H and the
  whole weight, forms the plain matrix product of the two (both narrowed to bf16, which is the identity on the extended
  reals, into the zero accumulator) and writes it back as the same rows of the result.  Entry (r, g) of H · W is
  Σₖ H (r, k) · W (k, g): it reads only row r of H, so block t of the whole product is the product of block t of H with
  W.  Every point writes back its block of ONE matrix, the blocks tile the 100000 rows (row r lies in block r / 5000),
  and the array ends holding that matrix.
-/
import proofs.«181907_j87514253623368_1_alg».proof.Proof.Gen.KernelIdeal.Frame
import proofs.«181907_j87514253623368_1_alg».proof.Proof.LibGcnLayers

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers
open scoped BigOperators

variable (V : (c : Dev nD) → (b : Ref sig .tc) → Buf (Elt Ideal) ((c : Thread nD τ).loc b))

/-- A block's offsets inside its own staging buffer are zero on both axes. -/
theorem zero_offsets : (![0, 0] : Fin 2 → Nat) = fun _ => 0 := funext fun a => by fin_cases a <;> rfl

/-- The printed contraction (left columns against right rows, no batch axis) is the plain matrix product. -/
theorem dims_plain : dot_S5000x64_S64x64_S5000x64_1_0_0_1_n_n = DotDims.plain 5000 64 64 := rfl

/-- The body's stored value at entry (p, g) of a block: Σₖ x (p, k) · w (k, g). -/
theorem product_at (x0 : Vec Ideal S5000x64 .f32) (x1 : Vec Ideal S64x64 .f32) (p : Fin 5000) (g : Fin 64) :
    k1_pay1 (F := Ideal) x0 x1 (ix2 p g) = dotAt (R := 5000) (K := 64) (N := 64) x0 x1 p g := by
  unfold k1_pay1
  refine (kernel_dot_at (R := 5000) (K := 64) (N := 64) (shapeCast S5000x64 x0 shapeCasts_S5000x64_S5000x64)
    (shapeCast S64x64 x1 shapeCasts_S64x64_S64x64) bitsLt_bf16_f32 bitsLt_bf16_f32 p g).trans ?_
  rw [shapeCast_self, shapeCast_self]

/-- The printed index maps over the grid: the operand's and the result's blocks sit at block row t, the weight's at
    block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has twenty points. -/
theorem point_lt (t : Fin cfg1.N) : t.val < 20 := by have := t.isLt; have h : cfg1.N = 20 := N_1; omega

/-- Row p of block t is row 5000 t + p of the array. -/
def row (t : Fin cfg1.N) (p : Fin 5000) : Fin 100000 := ⟨t.val * 5000 + p.val, by have := point_lt t; have := p.isLt; omega⟩

/-- Block t of H, at (p, k), is H at (5000 t + p, k). -/
theorem operand_block (c : Dev nD) (t : Fin cfg1.N) (p : Fin 5000) (k : Fin 64) :
    iblk1 V c 0 t (ix2 p k) = V c main_v31 (ix2 (row t p) k) := by
  obtain ⟨e0, e1, -⟩ := index_facts t
  show V c main_v31 (((cfg1.win 0).blk t).view.emb (ix2 p k)) = V c main_v31 (ix2 (row t p) k)
  refine congrArg (V c main_v31) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- The weight's block at any point is the whole weight. -/
theorem weight_block (c : Dev nD) (t : Fin cfg1.N) (k g : Fin 64) :
    iblk1 V c 1 t (ix2 k g) = V c main_v32 (ix2 k g) := by
  obtain ⟨-, -, e0, e1, -⟩ := index_facts t
  show V c main_v32 (((cfg1.win 1).blk t).view.emb (ix2 k g)) = V c main_v32 (ix2 k g)
  refine congrArg (V c main_v32) (funext fun a => Fin.ext ?_)
  match a with
  | ⟨0, _⟩ => show win1_1.index t (0 : Fin 2) * 64 + 1 * k.val = k.val; omega
  | ⟨1, _⟩ => show win1_1.index t (1 : Fin 2) * 64 + 1 * g.val = g.val; omega

/-- Entry (p, g) of the result's block t sits at (5000 t + p, g) of the array. -/
theorem result_entry (t : Fin cfg1.N) (p : Fin 5000) (g : Fin 64) :
    ((cfg1.win 2).blk t).view.emb (ix2 p g) = (ix2 (row t p) g : S100000x64.Idx) := by
  obtain ⟨-, -, -, -, e0, e1⟩ := index_facts t
  refine funext fun a => Fin.ext ?_
  match a with
  | ⟨0, _⟩ => show win1_2.index t (0 : Fin 2) * 5000 + 1 * p.val = t.val * 5000 + p.val; omega
  | ⟨1, _⟩ => show win1_2.index t (1 : Fin 2) * 64 + 1 * g.val = g.val; omega

/-- What point t writes back is rows 5000 t … 5000 t + 4999 of the whole product H · W of the arrays as the region
    finds them. -/
theorem flushed_eq (c : Dev nD) (t : Fin cfg1.N) :
    (dat1 (F := Ideal) V c).flushed 2 t = ((cfg1.win 2).blk t).view.read (Elt Ideal)
      (linLayer (R := 100000) (K := 64) (N := 64) (V c main_v31) (V c main_v32)) := by
  show (cfg1.win 2).cut (grid1.coords t) ((dat1 (F := Ideal) V c).after 2 t) = _
  rw [after1_2]
  unfold out1_2
  rw [View.canon_unit_zero zero_offsets]
  simp only [View.ld_unit_zero (S := S5000x64) zero_offsets, View.ld_unit_zero (S := S64x64) zero_offsets]
  funext j
  obtain ⟨p, g, rfl⟩ : ∃ (p : Fin 5000) (g : Fin 64), j = ix2 p g := ⟨j 0, j 1, eq_ix2 j⟩
  show k1_pay1 (F := Ideal) (iblk1 V c 0 t) (iblk1 V c 1 t) (ix2 p g)
    = linLayer (R := 100000) (K := 64) (N := 64) (V c main_v31) (V c main_v32) (((cfg1.win 2).blk t).view.emb (ix2 p g))
  rw [result_entry t p g]
  refine (product_at _ _ p g).trans ?_
  show dotAt (R := 5000) (K := 64) (N := 64) (iblk1 V c 0 t) (iblk1 V c 1 t) p g
    = dotAt (R := 100000) (K := 64) (N := 64) (V c main_v31) (V c main_v32) (row t p) g
  unfold dotAt
  simp only [operand_block, weight_block]

/-- An index of the array is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v33).slice (win1_2.rect t)).set ↔ _
  rw [View.set_slice_whole, Rect.mem_set_unit]
  exact Iff.rfl

/-- Every block row is some point's. -/
theorem block_rows_onto : ∀ q : Fin 20, ∃ t : Fin cfg1.N, win1_2.index t = ![q.val, 0] :=
  (by decide +kernel : ∀ q : Fin 20, ∃ t : Fin grid1.N, win1_2.index t = ![q.val, 0])

/-- The 20 blocks of 5000 rows tile the 100000 rows: row r is in block r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_rows_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The product's array after the region: H · W of the arrays the region found. -/
theorem final1 (c : Dev nD) : (dat1 (F := Ideal) V c).arrAt 2 cfg1.N
    = linLayer (R := 100000) (K := 64) (N := 64) (V c main_v31) (V c main_v32) :=
  (dat1 (F := Ideal) V c).arrAt_eq_of_cover 2 _ (fun t _ => flushed_eq V c t) cover

end Cert.KernelIdeal.Reg1

end
-- ==== Proof.Reg2.lean ====
/-
  Region 2 of the program: the node update of a graph convolution layer, computed by a pipelined kernel over 20 row
  blocks of 5000 rows.

  At grid point t the body holds rows 5000 t … 5000 t + 4999 of the aggregated messages agg and of the transformed
  features hw (blocks [5000, 64]), the same rows of the self-loop weight column s (a block [5000, 1]) and the whole
  bias row b ([1, 64]); it stores max ((agg + hw ∘ s) + b, 0) of these blocks into rows 5000 t … 5000 t + 4999 of the
  result.  Entry (r, g) of the node update reads only row r of agg, hw and s, so what point t stores is row block t of
  the whole-matrix node update `updLayer`; the 20 blocks tile the 100000 rows (row r lies in block r / 5000), so the
  result array ends holding `updLayer agg hw s b`, whatever it held before.
-/
import proofs.«181907_j87514253623368_1_alg».proof.Proof.Gen.KernelIdeal.Frame
import proofs.«181907_j87514253623368_1_alg».proof.Proof.LibGcnUpdate

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers

variable (V : (c : Dev nD) → (b : Ref sig .tc) → Buf (Elt Ideal) ((c : Thread nD τ).loc b))

/-- The zero offsets of a block's one whole-block load or store. -/
theorem zero_off : (![0, 0] : Fin 2 → Nat) = fun _ => 0 := funext fun a => by fin_cases a <;> rfl

/-- The body's stored value at entry (p, g) of its block: the node update of the four loaded blocks at (p, g). -/
theorem body_at (x0 x1 : Vec Ideal S5000x64 .f32) (x2 : Vec Ideal S5000x1 .f32) (x3 : Vec Ideal S1x64 .f32)
    (p : Fin 5000) (g : Fin 64) :
    k2_pay1 (F := Ideal) x0 x1 x2 x3 (ix2 p g) = updAt (R := 5000) (N := 64) x0 x1 x2 x3 p g := by
  unfold k2_pay1
  exact kernel_upd_at (R := 5000) (N := 64) x0 x1 x2 x3 shapeCasts_S5000x64_S5000x64 shapeCasts_S5000x64_S5000x64
    shapeCasts_S5000x1_S5000x1 broadcasts_S5000x1_S5000x64 shapeCasts_S1x64_S1x64 broadcasts_S1x64_S5000x64 p g

/-- The printed index maps, decided over the 20 grid points: at point t the three row-blocked inputs and the output
    sit at block (t, 0), the bias row at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- There are 20 grid points. -/
theorem point_lt (t : Fin cfg2.N) : t.val < 20 := by have := t.isLt; have h : cfg2.N = 20 := N_2; omega

/-- Row p of block t is row 5000 t + p of the array. -/
def blockRow (t : Fin cfg2.N) (p : Fin 5000) : Fin 100000 :=
  ⟨t.val * 5000 + p.val, by have := point_lt t; have := p.isLt; omega⟩

/-- Point t's block of agg, at (p, g), is agg at (5000 t + p, g). -/
theorem agg_block (c : Dev nD) (t : Fin cfg2.N) (p : Fin 5000) (g : Fin 64) :
    iblk2 V c 0 t (ix2 p g) = V c main_v45 (ix2 (blockRow t p) g) := by
  obtain ⟨e0, e1, -⟩ := block_index t
  show V c main_v45 (((cfg2.win 0).blk t).view.emb (ix2 p g)) = V c main_v45 (ix2 (blockRow t p) g)
  refine congrArg (V c main_v45) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * g.val = g.val; omega

/-- Point t's block of hw, at (p, g), is hw at (5000 t + p, g). -/
theorem hw_block (c : Dev nD) (t : Fin cfg2.N) (p : Fin 5000) (g : Fin 64) :
    iblk2 V c 1 t (ix2 p g) = V c main_v33 (ix2 (blockRow t p) g) := by
  obtain ⟨-, -, e0, e1, -⟩ := block_index t
  show V c main_v33 (((cfg2.win 1).blk t).view.emb (ix2 p g)) = V c main_v33 (ix2 (blockRow t p) g)
  refine congrArg (V c main_v33) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * g.val = g.val; omega

/-- Point t's block of the self-loop weight column, at (p, 0), is the column at (5000 t + p, 0). -/
theorem s_block (c : Dev nD) (t : Fin cfg2.N) (p : Fin 5000) (u : Fin 1) :
    iblk2 V c 2 t (ix2 p u) = V c main_v12 (ix2 (blockRow t p) u) := by
  obtain ⟨-, -, -, -, e0, e1, -⟩ := block_index t
  show V c main_v12 (((cfg2.win 2).blk t).view.emb (ix2 p u)) = V c main_v12 (ix2 (blockRow t p) u)
  refine congrArg (V c main_v12) (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * u.val = u.val; omega

/-- Every point's block of the bias row is the whole row. -/
theorem b_block (c : Dev nD) (t : Fin cfg2.N) (u : Fin 1) (g : Fin 64) :
    iblk2 V c 3 t (ix2 u g) = V c main_v46 (ix2 u g) := by
  obtain ⟨-, -, -, -, -, -, e0, e1, -⟩ := block_index t
  show V c main_v46 (((cfg2.win 3).blk t).view.emb (ix2 u g)) = V c main_v46 (ix2 u g)
  refine congrArg (V c main_v46) (funext fun a => Fin.ext ?_)
  match a with
  | ⟨0, _⟩ => show win2_3.index t (0 : Fin 2) * 1 + 1 * u.val = u.val; omega
  | ⟨1, _⟩ => show win2_3.index t (1 : Fin 2) * 64 + 1 * g.val = g.val; omega

/-- Entry (p, g) of the result's block t sits at (5000 t + p, g) of the array. -/
theorem out_entry (t : Fin cfg2.N) (p : Fin 5000) (g : Fin 64) :
    ((cfg2.win 4).blk t).view.emb (ix2 p g) = (ix2 (blockRow t p) g : S100000x64.Idx) := by
  obtain ⟨-, -, -, -, -, -, -, -, e0, e1⟩ := block_index t
  refine funext fun a => Fin.ext ?_
  match a with
  | ⟨0, _⟩ => show win2_4.index t (0 : Fin 2) * 5000 + 1 * p.val = t.val * 5000 + p.val; omega
  | ⟨1, _⟩ => show win2_4.index t (1 : Fin 2) * 64 + 1 * g.val = g.val; omega

/-- What point t writes back is row block t of the node update of the arrays as the region finds them. -/
theorem flushed_eq (c : Dev nD) (t : Fin cfg2.N) :
    (dat2 (F := Ideal) V c).flushed 4 t = ((cfg2.win 4).blk t).view.read (Elt Ideal)
      (updLayer (R := 100000) (N := 64) (V c main_v45) (V c main_v33) (V c main_v12) (V c main_v46)) := by
  show (cfg2.win 4).cut (grid2.coords t) ((dat2 (F := Ideal) V c).after 4 t) = _
  rw [after2_4]
  unfold out2_4
  rw [View.canon_unit_zero zero_off]
  simp only [View.ld_unit_zero (S := S5000x64) zero_off, View.ld_unit_zero (S := S5000x1) zero_off,
    View.ld_unit_zero (S := S1x64) zero_off]
  funext j
  obtain ⟨p, g, rfl⟩ : ∃ (p : Fin 5000) (g : Fin 64), j = ix2 p g := ⟨j 0, j 1, eq_ix2 j⟩
  show k2_pay1 (F := Ideal) (iblk2 V c 0 t) (iblk2 V c 1 t) (iblk2 V c 2 t) (iblk2 V c 3 t) (ix2 p g)
    = updLayer (R := 100000) (N := 64) (V c main_v45) (V c main_v33) (V c main_v12) (V c main_v46)
        (((cfg2.win 4).blk t).view.emb (ix2 p g))
  rw [out_entry t p g]
  refine (body_at _ _ _ _ p g).trans ?_
  show updAt (R := 5000) (N := 64) (iblk2 V c 0 t) (iblk2 V c 1 t) (iblk2 V c 2 t) (iblk2 V c 3 t) p g
    = updAt (R := 100000) (N := 64) (V c main_v45) (V c main_v33) (V c main_v12) (V c main_v46) (blockRow t p) g
  unfold updAt
  simp only [agg_block, hw_block, s_block, b_block]

/-- An index of the array is in point t's block iff each coordinate is in the block's range on its axis. -/
theorem mem_block (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v47).slice (win2_4.rect t)).set ↔ _
  rw [View.set_slice_whole, Rect.mem_set_unit]
  exact Iff.rfl

/-- The 20 blocks of 5000 rows tile the 100000 rows: row r is in block r / 5000. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, -, -, -, -, q0, q1⟩ := block_index t
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The result array after the region: the node update of the arrays the region found. -/
theorem final2 (c : Dev nD) : (dat2 (F := Ideal) V c).arrAt 4 cfg2.N
    = updLayer (R := 100000) (N := 64) (V c main_v45) (V c main_v33) (V c main_v12) (V c main_v46) :=
  (dat2 (F := Ideal) V c).arrAt_eq_of_cover 4 _ (fun t _ => flushed_eq V c t) cover

end Cert.KernelIdeal.Reg2

end
-- ==== Proof.Reg3.lean ====
/-
  Region 3 of the idealized kernel: the bias-free product  H · W  of a graph convolution, H : [100000, 64] and
  W : [64, 64], computed in 20 row blocks of 5000.  Point t of the grid loads rows 5000 t … 5000 t + 4999 of H and the
  whole weight, forms the plain matrix product of the two (both narrowed to bf16, which is the identity on the extended
  reals, into the zero accumulator) and writes it back as the same rows of the result.  Entry (r, g) of H · W is
  Σₖ H (r, k) · W (k, g): it reads only row r of H, so block t of the whole product is the product of block t of H with
  W.  Every point writes back its block of ONE matrix, the blocks tile the 100000 rows (row r lies in block r / 5000),
  and the array ends holding that matrix.
-/
import proofs.«181907_j87514253623368_1_alg».proof.Proof.Gen.KernelIdeal.Frame
import proofs.«181907_j87514253623368_1_alg».proof.Proof.LibGcnLayers

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers
open scoped BigOperators

variable (V : (c : Dev nD) → (b : Ref sig .tc) → Buf (Elt Ideal) ((c : Thread nD τ).loc b))

/-- A block's offsets inside its own staging buffer are zero on both axes. -/
theorem zero_offsets : (![0, 0] : Fin 2 → Nat) = fun _ => 0 := funext fun a => by fin_cases a <;> rfl

/-- The printed contraction (left columns against right rows, no batch axis) is the plain matrix product. -/
theorem dims_plain : dot_S5000x64_S64x64_S5000x64_1_0_0_1_n_n = DotDims.plain 5000 64 64 := rfl

/-- The body's stored value at entry (p, g) of a block: Σₖ x (p, k) · w (k, g). -/
theorem product_at (x0 : Vec Ideal S5000x64 .f32) (x1 : Vec Ideal S64x64 .f32) (p : Fin 5000) (g : Fin 64) :
    k3_pay1 (F := Ideal) x0 x1 (ix2 p g) = dotAt (R := 5000) (K := 64) (N := 64) x0 x1 p g := by
  unfold k3_pay1
  refine (kernel_dot_at (R := 5000) (K := 64) (N := 64) (shapeCast S5000x64 x0 shapeCasts_S5000x64_S5000x64)
    (shapeCast S64x64 x1 shapeCasts_S64x64_S64x64) bitsLt_bf16_f32 bitsLt_bf16_f32 p g).trans ?_
  rw [shapeCast_self, shapeCast_self]

/-- The printed index maps over the grid: the operand's and the result's blocks sit at block row t, the weight's at
    block 0. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The grid has twenty points. -/
theorem point_lt (t : Fin cfg3.N) : t.val < 20 := by have := t.isLt; have h : cfg3.N = 20 := N_3; omega

/-- Row p of block t is row 5000 t + p of the array. -/
def row (t : Fin cfg3.N) (p : Fin 5000) : Fin 100000 := ⟨t.val * 5000 + p.val, by have := point_lt t; have := p.isLt; omega⟩

/-- Block t of H, at (p, k), is H at (5000 t + p, k). -/
theorem operand_block (c : Dev nD) (t : Fin cfg3.N) (p : Fin 5000) (k : Fin 64) :
    iblk3 V c 0 t (ix2 p k) = V c main_v47 (ix2 (row t p) k) := by
  obtain ⟨e0, e1, -⟩ := index_facts t
  show V c main_v47 (((cfg3.win 0).blk t).view.emb (ix2 p k)) = V c main_v47 (ix2 (row t p) k)
  refine congrArg (V c main_v47) (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * k.val = k.val; omega

/-- The weight's block at any point is the whole weight. -/
theorem weight_block (c : Dev nD) (t : Fin cfg3.N) (k g : Fin 64) :
    iblk3 V c 1 t (ix2 k g) = V c main_v48 (ix2 k g) := by
  obtain ⟨-, -, e0, e1, -⟩ := index_facts t
  show V c main_v48 (((cfg3.win 1).blk t).view.emb (ix2 k g)) = V c main_v48 (ix2 k g)
  refine congrArg (V c main_v48) (funext fun a => Fin.ext ?_)
  match a with
  | ⟨0, _⟩ => show win3_1.index t (0 : Fin 2) * 64 + 1 * k.val = k.val; omega
  | ⟨1, _⟩ => show win3_1.index t (1 : Fin 2) * 64 + 1 * g.val = g.val; omega

/-- Entry (p, g) of the result's block t sits at (5000 t + p, g) of the array. -/
theorem result_entry (t : Fin cfg3.N) (p : Fin 5000) (g : Fin 64) :
    ((cfg3.win 2).blk t).view.emb (ix2 p g) = (ix2 (row t p) g : S100000x64.Idx) := by
  obtain ⟨-, -, -, -, e0, e1⟩ := index_facts t
  refine funext fun a => Fin.ext ?_
  match a with
  | ⟨0, _⟩ => show win3_2.index t (0 : Fin 2) * 5000 + 1 * p.val = t.val * 5000 + p.val; omega
  | ⟨1, _⟩ => show win3_2.index t (1 : Fin 2) * 64 + 1 * g.val = g.val; omega

/-- What point t writes back is rows 5000 t … 5000 t + 4999 of the whole product H · W of the arrays as the region
    finds them. -/
theorem flushed_eq (c : Dev nD) (t : Fin cfg3.N) :
    (dat3 (F := Ideal) V c).flushed 2 t = ((cfg3.win 2).blk t).view.read (Elt Ideal)
      (linLayer (R := 100000) (K := 64) (N := 64) (V c main_v47) (V c main_v48)) := by
  show (cfg3.win 2).cut (grid3.coords t) ((dat3 (F := Ideal) V c).after 2 t) = _
  rw [after3_2]
  unfold out3_2
  rw [View.canon_unit_zero zero_offsets]
  simp only [View.ld_unit_zero (S := S5000x64) zero_offsets, View.ld_unit_zero (S := S64x64) zero_offsets]
  funext j
  obtain ⟨p, g, rfl⟩ : ∃ (p : Fin 5000) (g : Fin 64), j = ix2 p g := ⟨j 0, j 1, eq_ix2 j⟩
  show k3_pay1 (F := Ideal) (iblk3 V c 0 t) (iblk3 V c 1 t) (ix2 p g)
    = linLayer (R := 100000) (K := 64) (N := 64) (V c main_v47) (V c main_v48) (((cfg3.win 2).blk t).view.emb (ix2 p g))
  rw [result_entry t p g]
  refine (product_at _ _ p g).trans ?_
  show dotAt (R := 5000) (K := 64) (N := 64) (iblk3 V c 0 t) (iblk3 V c 1 t) p g
    = dotAt (R := 100000) (K := 64) (N := 64) (V c main_v47) (V c main_v48) (row t p) g
  unfold dotAt
  simp only [operand_block, weight_block]

/-- An index of the array is in point t's block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v49).slice (win3_2.rect t)).set ↔ _
  rw [View.set_slice_whole, Rect.mem_set_unit]
  exact Iff.rfl

/-- Every block row is some point's. -/
theorem block_rows_onto : ∀ q : Fin 20, ∃ t : Fin cfg3.N, win3_2.index t = ![q.val, 0] :=
  (by decide +kernel : ∀ q : Fin 20, ∃ t : Fin grid3.N, win3_2.index t = ![q.val, 0])

/-- The 20 blocks of 5000 rows tile the 100000 rows: row r is in block r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := block_rows_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The product's array after the region: H · W of the arrays the region found. -/
theorem final3 (c : Dev nD) : (dat3 (F := Ideal) V c).arrAt 2 cfg3.N
    = linLayer (R := 100000) (K := 64) (N := 64) (V c main_v47) (V c main_v48) :=
  (dat3 (F := Ideal) V c).arrAt_eq_of_cover 2 _ (fun t _ => flushed_eq V c t) cover

end Cert.KernelIdeal.Reg3

end
-- ==== Proof.Reg4.lean ====
/-
  Region 4 of the program: the node update of a graph convolution layer, computed by a pipelined kernel over 20 row
  blocks of 5000 rows.

  At grid point t the body holds rows 5000 t … 5000 t + 4999 of the aggregated messages agg and of the transformed
  features hw (blocks [5000, 64]), the same rows of the self-loop weight column s (a block [5000, 1]) and the whole
  bias row b ([1, 64]); it stores max ((agg + hw ∘ s) + b, 0) of these blocks into rows 5000 t … 5000 t + 4999 of the
  result.  Entry (r, g) of the node update reads only row r of agg, hw and s, so what point t stores is row block t of
  the whole-matrix node update `updLayer`; the 20 blocks tile the 100000 rows (row r lies in block r / 5000), so the
  result array ends holding `updLayer agg hw s b`, whatever it held before.
-/
import proofs.«181907_j87514253623368_1_alg».proof.Proof.Gen.KernelIdeal.Frame
import proofs.«181907_j87514253623368_1_alg».proof.Proof.LibGcnUpdate

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers

variable (V : (c : Dev nD) → (b : Ref sig .tc) → Buf (Elt Ideal) ((c : Thread nD τ).loc b))

/-- The zero offsets of a block's one whole-block load or store. -/
theorem zero_off : (![0, 0] : Fin 2 → Nat) = fun _ => 0 := funext fun a => by fin_cases a <;> rfl

/-- The body's stored value at entry (p, g) of its block: the node update of the four loaded blocks at (p, g). -/
theorem body_at (x0 x1 : Vec Ideal S5000x64 .f32) (x2 : Vec Ideal S5000x1 .f32) (x3 : Vec Ideal S1x64 .f32)
    (p : Fin 5000) (g : Fin 64) :
    k4_pay1 (F := Ideal) x0 x1 x2 x3 (ix2 p g) = updAt (R := 5000) (N := 64) x0 x1 x2 x3 p g := by
  unfold k4_pay1
  exact kernel_upd_at (R := 5000) (N := 64) x0 x1 x2 x3 shapeCasts_S5000x64_S5000x64 shapeCasts_S5000x64_S5000x64
    shapeCasts_S5000x1_S5000x1 broadcasts_S5000x1_S5000x64 shapeCasts_S1x64_S1x64 broadcasts_S1x64_S5000x64 p g

/-- The printed index maps, decided over the 20 grid points: at point t the three row-blocked inputs and the output
    sit at block (t, 0), the bias row at block (0, 0). -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- There are 20 grid points. -/
theorem point_lt (t : Fin cfg4.N) : t.val < 20 := by have := t.isLt; have h : cfg4.N = 20 := N_4; omega

/-- Row p of block t is row 5000 t + p of the array. -/
def blockRow (t : Fin cfg4.N) (p : Fin 5000) : Fin 100000 :=
  ⟨t.val * 5000 + p.val, by have := point_lt t; have := p.isLt; omega⟩

/-- Point t's block of agg, at (p, g), is agg at (5000 t + p, g). -/
theorem agg_block (c : Dev nD) (t : Fin cfg4.N) (p : Fin 5000) (g : Fin 64) :
    iblk4 V c 0 t (ix2 p g) = V c main_v61 (ix2 (blockRow t p) g) := by
  obtain ⟨e0, e1, -⟩ := block_index t
  show V c main_v61 (((cfg4.win 0).blk t).view.emb (ix2 p g)) = V c main_v61 (ix2 (blockRow t p) g)
  refine congrArg (V c main_v61) (funext fun a => Fin.ext ?_)
  match a with
  | ⟨0, _⟩ => show win4_0.index t (0 : Fin 2) * 5000 + 1 * p.val = t.val * 5000 + p.val; omega
  | ⟨1, _⟩ => show win4_0.index t (1 : Fin 2) * 64 + 1 * g.val = g.val; omega

/-- Point t's block of hw, at (p, g), is hw at (5000 t + p, g). -/
theorem hw_block (c : Dev nD) (t : Fin cfg4.N) (p : Fin 5000) (g : Fin 64) :
    iblk4 V c 1 t (ix2 p g) = V c main_v49 (ix2 (blockRow t p) g) := by
  obtain ⟨-, -, e0, e1, -⟩ := block_index t
  show V c main_v49 (((cfg4.win 1).blk t).view.emb (ix2 p g)) = V c main_v49 (ix2 (blockRow t p) g)
  refine congrArg (V c main_v49) (funext fun a => Fin.ext ?_)
  match a with
  | ⟨0, _⟩ => show win4_1.index t (0 : Fin 2) * 5000 + 1 * p.val = t.val * 5000 + p.val; omega
  | ⟨1, _⟩ => show win4_1.index t (1 : Fin 2) * 64 + 1 * g.val = g.val; omega

/-- Point t's block of the self-loop weight column, at (p, 0), is the column at (5000 t + p, 0). -/
theorem s_block (c : Dev nD) (t : Fin cfg4.N) (p : Fin 5000) (u : Fin 1) :
    iblk4 V c 2 t (ix2 p u) = V c main_v12 (ix2 (blockRow t p) u) := by
  obtain ⟨-, -, -, -, e0, e1, -⟩ := block_index t
  show V c main_v12 (((cfg4.win 2).blk t).view.emb (ix2 p u)) = V c main_v12 (ix2 (blockRow t p) u)
  refine congrArg (V c main_v12) (funext fun a => Fin.ext ?_)
  match a with
  | ⟨0, _⟩ => show win4_2.index t (0 : Fin 2) * 5000 + 1 * p.val = t.val * 5000 + p.val; omega
  | ⟨1, _⟩ => show win4_2.index t (1 : Fin 2) * 1 + 1 * u.val = u.val; omega

/-- Every point's block of the bias row is the whole row. -/
theorem b_block (c : Dev nD) (t : Fin cfg4.N) (u : Fin 1) (g : Fin 64) :
    iblk4 V c 3 t (ix2 u g) = V c main_v62 (ix2 u g) := by
  obtain ⟨-, -, -, -, -, -, e0, e1, -⟩ := block_index t
  show V c main_v62 (((cfg4.win 3).blk t).view.emb (ix2 u g)) = V c main_v62 (ix2 u g)
  refine congrArg (V c main_v62) (funext fun a => Fin.ext ?_)
  match a with
  | ⟨0, _⟩ => show win4_3.index t (0 : Fin 2) * 1 + 1 * u.val = u.val; omega
  | ⟨1, _⟩ => show win4_3.index t (1 : Fin 2) * 64 + 1 * g.val = g.val; omega

/-- Entry (p, g) of the result's block t sits at (5000 t + p, g) of the array. -/
theorem out_entry (t : Fin cfg4.N) (p : Fin 5000) (g : Fin 64) :
    ((cfg4.win 4).blk t).view.emb (ix2 p g) = (ix2 (blockRow t p) g : S100000x64.Idx) := by
  obtain ⟨-, -, -, -, -, -, -, -, e0, e1⟩ := block_index t
  refine funext fun a => Fin.ext ?_
  match a with
  | ⟨0, _⟩ => show win4_4.index t (0 : Fin 2) * 5000 + 1 * p.val = t.val * 5000 + p.val; omega
  | ⟨1, _⟩ => show win4_4.index t (1 : Fin 2) * 64 + 1 * g.val = g.val; omega

/-- What point t writes back is row block t of the node update of the arrays as the region finds them. -/
theorem flushed_eq (c : Dev nD) (t : Fin cfg4.N) :
    (dat4 (F := Ideal) V c).flushed 4 t = ((cfg4.win 4).blk t).view.read (Elt Ideal)
      (updLayer (R := 100000) (N := 64) (V c main_v61) (V c main_v49) (V c main_v12) (V c main_v62)) := by
  show (cfg4.win 4).cut (grid4.coords t) ((dat4 (F := Ideal) V c).after 4 t) = _
  rw [after4_4]
  unfold out4_4
  rw [View.canon_unit_zero zero_off]
  simp only [View.ld_unit_zero (S := S5000x64) zero_off, View.ld_unit_zero (S := S5000x1) zero_off,
    View.ld_unit_zero (S := S1x64) zero_off]
  funext j
  obtain ⟨p, g, rfl⟩ : ∃ (p : Fin 5000) (g : Fin 64), j = ix2 p g := ⟨j 0, j 1, eq_ix2 j⟩
  show k4_pay1 (F := Ideal) (iblk4 V c 0 t) (iblk4 V c 1 t) (iblk4 V c 2 t) (iblk4 V c 3 t) (ix2 p g)
    = updLayer (R := 100000) (N := 64) (V c main_v61) (V c main_v49) (V c main_v12) (V c main_v62)
        (((cfg4.win 4).blk t).view.emb (ix2 p g))
  rw [out_entry t p g]
  refine (body_at _ _ _ _ p g).trans ?_
  show updAt (R := 5000) (N := 64) (iblk4 V c 0 t) (iblk4 V c 1 t) (iblk4 V c 2 t) (iblk4 V c 3 t) p g
    = updAt (R := 100000) (N := 64) (V c main_v61) (V c main_v49) (V c main_v12) (V c main_v62) (blockRow t p) g
  unfold updAt
  simp only [agg_block, hw_block, s_block, b_block]

/-- An index of the array is in point t's block iff each coordinate is in the block's range on its axis. -/
theorem mem_block (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v63).slice (win4_4.rect t)).set ↔ _
  rw [View.set_slice_whole, Rect.mem_set_unit]
  exact Iff.rfl

/-- The 20 blocks of 5000 rows tile the 100000 rows: row r is in block r / 5000. -/
theorem cover (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by omega⟩, rfl⟩
  obtain ⟨-, -, -, -, -, -, -, -, q0, q1⟩ := block_index t
  refine ⟨t, flush4_4 t, ?_⟩
  rw [mem_block]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- The result array after the region: the node update of the arrays the region found. -/
theorem final4 (c : Dev nD) : (dat4 (F := Ideal) V c).arrAt 4 cfg4.N
    = updLayer (R := 100000) (N := 64) (V c main_v61) (V c main_v49) (V c main_v12) (V c main_v62) :=
  (dat4 (F := Ideal) V c).arrAt_eq_of_cover 4 _ (fun t _ => flushed_eq V c t) cover

end Cert.KernelIdeal.Reg4

end
-- ==== Proof.Reg5.lean ====
/-
  Region 5 of the idealized kernel: the bias-free product  H · W  of a graph convolution, H : [100000, 64] and
  W : [64, 64], computed in 20 row blocks of 5000.  Point t of the grid loads rows 5000 t … 5000 t + 4999 of H and the
  whole weight, forms the plain matrix product of the two (both narrowed to bf16, which is the identity on the extended
  reals, into the zero accumulator) and writes it back as the same rows of the result.  Entry (r, g) of H · W is
  Σₖ H (r, k) · W (k, g): it reads only row r of H, so block t of the whole product is the product of block t of H with
  W.  Every point writes back its block of ONE matrix, the blocks tile the 100000 rows (row r lies in block r / 5000),
  and the array ends holding that matrix.
-/
import proofs.«181907_j87514253623368_1_alg».proof.Proof.Gen.KernelIdeal.Frame
import proofs.«181907_j87514253623368_1_alg».proof.Proof.LibGcnLayers

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers
open scoped BigOperators

variable (V : (c : Dev nD) → (b : Ref sig .tc) → Buf (Elt Ideal) ((c : Thread nD τ).loc b))

/-- A block's offsets inside its own staging buffer are zero on both axes. -/
theorem zero_offsets : (![0, 0] : Fin 2 → Nat) = fun _ => 0 := funext fun a => by fin_cases a <;> rfl

/-- The printed contraction (left columns against right rows, no batch axis) is the plain matrix product. -/
theorem dims_plain : dot_S5000x64_S64x64_S5000x64_1_0_0_1_n_n = DotDims.plain 5000 64 64 := rfl

/-- The body's stored value at entry (p, g) of a block: Σₖ x (p, k) · w (k, g). -/
theorem product_at (x0 : Vec Ideal S5000x64 .f32) (x1 : Vec Ideal S64x64 .f32) (p : Fin 5000) (g : Fin 64) :
    k5_pay1 (F := Ideal) x0 x1 (ix2 p g) = dotAt (R := 5000) (K := 64) (N := 64) x0 x1 p g := by
  unfold k5_pay1
  refine (kernel_dot_at (R := 5000) (K := 64) (N := 64) (shapeCast S5000x64 x0 shapeCasts_S5000x64_S5000x64)
    (shapeCast S64x64 x1 shapeCasts_S64x64_S64x64) bitsLt_bf16_f32 bitsLt_bf16_f32 p g).trans ?_
  rw [shapeCast_self, shapeCast_self]

/-- The printed index maps over the grid: the operand's and the result's blocks sit at block row t, the weight's at
    block 0. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The grid has twenty points. -/
theorem point_lt (t : Fin cfg5.N) : t.val < 20 := by have := t.isLt; have h : cfg5.N = 20 := N_5; omega

/-- Row p of block t is row 5000 t + p of the array. -/
def row (t : Fin cfg5.N) (p : Fin 5000) : Fin 100000 := ⟨t.val * 5000 + p.val, by have := point_lt t; have := p.isLt; omega⟩

/-- Block t of H, at (p, k), is H at (5000 t + p, k). -/
theorem operand_block (c : Dev nD) (t : Fin cfg5.N) (p : Fin 5000) (k : Fin 64) :
    iblk5 V c 0 t (ix2 p k) = V c main_v63 (ix2 (row t p) k) := by
  obtain ⟨e0, e1, -⟩ := index_facts t
  show V c main_v63 (((cfg5.win 0).blk t).view.emb (ix2 p k)) = V c main_v63 (ix2 (row t p) k)
  refine congrArg (V c main_v63) (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * k.val = k.val; omega

/-- The weight's block at any point is the whole weight. -/
theorem weight_block (c : Dev nD) (t : Fin cfg5.N) (k g : Fin 64) :
    iblk5 V c 1 t (ix2 k g) = V c main_v64 (ix2 k g) := by
  obtain ⟨-, -, e0, e1, -⟩ := index_facts t
  show V c main_v64 (((cfg5.win 1).blk t).view.emb (ix2 k g)) = V c main_v64 (ix2 k g)
  refine congrArg (V c main_v64) (funext fun a => Fin.ext ?_)
  match a with
  | ⟨0, _⟩ => show win5_1.index t (0 : Fin 2) * 64 + 1 * k.val = k.val; omega
  | ⟨1, _⟩ => show win5_1.index t (1 : Fin 2) * 64 + 1 * g.val = g.val; omega

/-- Entry (p, g) of the result's block t sits at (5000 t + p, g) of the array. -/
theorem result_entry (t : Fin cfg5.N) (p : Fin 5000) (g : Fin 64) :
    ((cfg5.win 2).blk t).view.emb (ix2 p g) = (ix2 (row t p) g : S100000x64.Idx) := by
  obtain ⟨-, -, -, -, e0, e1⟩ := index_facts t
  refine funext fun a => Fin.ext ?_
  match a with
  | ⟨0, _⟩ => show win5_2.index t (0 : Fin 2) * 5000 + 1 * p.val = t.val * 5000 + p.val; omega
  | ⟨1, _⟩ => show win5_2.index t (1 : Fin 2) * 64 + 1 * g.val = g.val; omega

/-- What point t writes back is rows 5000 t … 5000 t + 4999 of the whole product H · W of the arrays as the region
    finds them. -/
theorem flushed_eq (c : Dev nD) (t : Fin cfg5.N) :
    (dat5 (F := Ideal) V c).flushed 2 t = ((cfg5.win 2).blk t).view.read (Elt Ideal)
      (linLayer (R := 100000) (K := 64) (N := 64) (V c main_v63) (V c main_v64)) := by
  show (cfg5.win 2).cut (grid5.coords t) ((dat5 (F := Ideal) V c).after 2 t) = _
  rw [after5_2]
  unfold out5_2
  rw [View.canon_unit_zero zero_offsets]
  simp only [View.ld_unit_zero (S := S5000x64) zero_offsets, View.ld_unit_zero (S := S64x64) zero_offsets]
  funext j
  obtain ⟨p, g, rfl⟩ : ∃ (p : Fin 5000) (g : Fin 64), j = ix2 p g := ⟨j 0, j 1, eq_ix2 j⟩
  show k5_pay1 (F := Ideal) (iblk5 V c 0 t) (iblk5 V c 1 t) (ix2 p g)
    = linLayer (R := 100000) (K := 64) (N := 64) (V c main_v63) (V c main_v64) (((cfg5.win 2).blk t).view.emb (ix2 p g))
  rw [result_entry t p g]
  refine (product_at _ _ p g).trans ?_
  show dotAt (R := 5000) (K := 64) (N := 64) (iblk5 V c 0 t) (iblk5 V c 1 t) p g
    = dotAt (R := 100000) (K := 64) (N := 64) (V c main_v63) (V c main_v64) (row t p) g
  unfold dotAt
  simp only [operand_block, weight_block]

/-- An index of the array is in point t's block iff each coordinate is in the block's range on its axis. -/
theorem mem_block (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v65).slice (win5_2.rect t)).set ↔ _
  rw [View.set_slice_whole, Rect.mem_set_unit]
  exact Iff.rfl

/-- Every block row is some point's. -/
theorem block_rows_onto : ∀ q : Fin 20, ∃ t : Fin cfg5.N, win5_2.index t = ![q.val, 0] :=
  (by decide +kernel : ∀ q : Fin 20, ∃ t : Fin grid5.N, win5_2.index t = ![q.val, 0])

/-- The 20 blocks of 5000 rows tile the 100000 rows: row r is in block r / 5000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := block_rows_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The product's array after the region: H · W of the arrays the region found. -/
theorem final5 (c : Dev nD) : (dat5 (F := Ideal) V c).arrAt 2 cfg5.N
    = linLayer (R := 100000) (K := 64) (N := 64) (V c main_v63) (V c main_v64) :=
  (dat5 (F := Ideal) V c).arrAt_eq_of_cover 2 _ (fun t _ => flushed_eq V c t) cover

end Cert.KernelIdeal.Reg5

end
-- ==== Proof.Reg6.lean ====
/-
  Region 6 of the program: the node update of a graph convolution layer, computed by a pipelined kernel over 20 row
  blocks of 5000 rows.

  At grid point t the body holds rows 5000 t … 5000 t + 4999 of the aggregated messages agg and of the transformed
  features hw (blocks [5000, 64]), the same rows of the self-loop weight column s (a block [5000, 1]) and the whole
  bias row b ([1, 64]); it stores max ((agg + hw ∘ s) + b, 0) of these blocks into rows 5000 t … 5000 t + 4999 of the
  result.  Entry (r, g) of the node update reads only row r of agg, hw and s, so what point t stores is row block t of
  the whole-matrix node update `updLayer`; the 20 blocks tile the 100000 rows (row r lies in block r / 5000), so the
  result array ends holding `updLayer agg hw s b`, whatever it held before.
-/
import proofs.«181907_j87514253623368_1_alg».proof.Proof.Gen.KernelIdeal.Frame
import proofs.«181907_j87514253623368_1_alg».proof.Proof.LibGcnUpdate

set_option maxRecDepth 16384

noncomputable section

namespace Cert.KernelIdeal.Reg6

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers

variable (V : (c : Dev nD) → (b : Ref sig .tc) → Buf (Elt Ideal) ((c : Thread nD τ).loc b))

/-- The zero offsets of a block's one whole-block load or store. -/
theorem zero_off : (![0, 0] : Fin 2 → Nat) = fun _ => 0 := funext fun a => by fin_cases a <;> rfl

/-- The body's stored value at entry (p, g) of its block: the node update of the four loaded blocks at (p, g). -/
theorem body_at (x0 x1 : Vec Ideal S5000x64 .f32) (x2 : Vec Ideal S5000x1 .f32) (x3 : Vec Ideal S1x64 .f32)
    (p : Fin 5000) (g : Fin 64) :
    k6_pay1 (F := Ideal) x0 x1 x2 x3 (ix2 p g) = updAt (R := 5000) (N := 64) x0 x1 x2 x3 p g := by
  unfold k6_pay1
  exact kernel_upd_at (R := 5000) (N := 64) x0 x1 x2 x3 shapeCasts_S5000x64_S5000x64 shapeCasts_S5000x64_S5000x64
    shapeCasts_S5000x1_S5000x1 broadcasts_S5000x1_S5000x64 shapeCasts_S1x64_S1x64 broadcasts_S1x64_S5000x64 p g

/-- The printed index maps, decided over the 20 grid points: at point t the three row-blocked inputs and the output
    sit at block (t, 0), the bias row at block (0, 0). -/
theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- There are 20 grid points. -/
theorem point_lt (t : Fin cfg6.N) : t.val < 20 := by have := t.isLt; have h : cfg6.N = 20 := N_6; omega

/-- Row p of block t is row 5000 t + p of the array. -/
def blockRow (t : Fin cfg6.N) (p : Fin 5000) : Fin 100000 :=
  ⟨t.val * 5000 + p.val, by have := point_lt t; have := p.isLt; omega⟩

/-- Point t's block of agg, at (p, g), is agg at (5000 t + p, g). -/
theorem agg_block (c : Dev nD) (t : Fin cfg6.N) (p : Fin 5000) (g : Fin 64) :
    iblk6 V c 0 t (ix2 p g) = V c main_v77 (ix2 (blockRow t p) g) := by
  obtain ⟨e0, e1, -⟩ := block_index t
  show V c main_v77 (((cfg6.win 0).blk t).view.emb (ix2 p g)) = V c main_v77 (ix2 (blockRow t p) g)
  refine congrArg (V c main_v77) (funext fun a => Fin.ext ?_)
  match a with
  | ⟨0, _⟩ => show win6_0.index t (0 : Fin 2) * 5000 + 1 * p.val = t.val * 5000 + p.val; omega
  | ⟨1, _⟩ => show win6_0.index t (1 : Fin 2) * 64 + 1 * g.val = g.val; omega

/-- Point t's block of hw, at (p, g), is hw at (5000 t + p, g). -/
theorem hw_block (c : Dev nD) (t : Fin cfg6.N) (p : Fin 5000) (g : Fin 64) :
    iblk6 V c 1 t (ix2 p g) = V c main_v65 (ix2 (blockRow t p) g) := by
  obtain ⟨-, -, e0, e1, -⟩ := block_index t
  show V c main_v65 (((cfg6.win 1).blk t).view.emb (ix2 p g)) = V c main_v65 (ix2 (blockRow t p) g)
  refine congrArg (V c main_v65) (funext fun a => Fin.ext ?_)
  match a with
  | ⟨0, _⟩ => show win6_1.index t (0 : Fin 2) * 5000 + 1 * p.val = t.val * 5000 + p.val; omega
  | ⟨1, _⟩ => show win6_1.index t (1 : Fin 2) * 64 + 1 * g.val = g.val; omega

/-- Point t's block of the self-loop weight column, at (p, 0), is the column at (5000 t + p, 0). -/
theorem s_block (c : Dev nD) (t : Fin cfg6.N) (p : Fin 5000) (u : Fin 1) :
    iblk6 V c 2 t (ix2 p u) = V c main_v12 (ix2 (blockRow t p) u) := by
  obtain ⟨-, -, -, -, e0, e1, -⟩ := block_index t
  show V c main_v12 (((cfg6.win 2).blk t).view.emb (ix2 p u)) = V c main_v12 (ix2 (blockRow t p) u)
  refine congrArg (V c main_v12) (funext fun a => Fin.ext ?_)
  match a with
  | ⟨0, _⟩ => show win6_2.index t (0 : Fin 2) * 5000 + 1 * p.val = t.val * 5000 + p.val; omega
  | ⟨1, _⟩ => show win6_2.index t (1 : Fin 2) * 1 + 1 * u.val = u.val; omega

/-- Every point's block of the bias row is the whole row. -/
theorem b_block (c : Dev nD) (t : Fin cfg6.N) (u : Fin 1) (g : Fin 64) :
    iblk6 V c 3 t (ix2 u g) = V c main_v78 (ix2 u g) := by
  obtain ⟨-, -, -, -, -, -, e0, e1, -⟩ := block_index t
  show V c main_v78 (((cfg6.win 3).blk t).view.emb (ix2 u g)) = V c main_v78 (ix2 u g)
  refine congrArg (V c main_v78) (funext fun a => Fin.ext ?_)
  match a with
  | ⟨0, _⟩ => show win6_3.index t (0 : Fin 2) * 1 + 1 * u.val = u.val; omega
  | ⟨1, _⟩ => show win6_3.index t (1 : Fin 2) * 64 + 1 * g.val = g.val; omega

/-- Entry (p, g) of the result's block t sits at (5000 t + p, g) of the array. -/
theorem out_entry (t : Fin cfg6.N) (p : Fin 5000) (g : Fin 64) :
    ((cfg6.win 4).blk t).view.emb (ix2 p g) = (ix2 (blockRow t p) g : S100000x64.Idx) := by
  obtain ⟨-, -, -, -, -, -, -, -, e0, e1⟩ := block_index t
  refine funext fun a => Fin.ext ?_
  match a with
  | ⟨0, _⟩ => show win6_4.index t (0 : Fin 2) * 5000 + 1 * p.val = t.val * 5000 + p.val; omega
  | ⟨1, _⟩ => show win6_4.index t (1 : Fin 2) * 64 + 1 * g.val = g.val; omega

/-- What point t writes back is row block t of the node update of the arrays as the region finds them. -/
theorem flushed_eq (c : Dev nD) (t : Fin cfg6.N) :
    (dat6 (F := Ideal) V c).flushed 4 t = ((cfg6.win 4).blk t).view.read (Elt Ideal)
      (updLayer (R := 100000) (N := 64) (V c main_v77) (V c main_v65) (V c main_v12) (V c main_v78)) := by
  show (cfg6.win 4).cut (grid6.coords t) ((dat6 (F := Ideal) V c).after 4 t) = _
  rw [after6_4]
  unfold out6_4
  rw [View.canon_unit_zero zero_off]
  simp only [View.ld_unit_zero (S := S5000x64) zero_off, View.ld_unit_zero (S := S5000x1) zero_off,
    View.ld_unit_zero (S := S1x64) zero_off]
  funext j
  obtain ⟨p, g, rfl⟩ : ∃ (p : Fin 5000) (g : Fin 64), j = ix2 p g := ⟨j 0, j 1, eq_ix2 j⟩
  show k6_pay1 (F := Ideal) (iblk6 V c 0 t) (iblk6 V c 1 t) (iblk6 V c 2 t) (iblk6 V c 3 t) (ix2 p g)
    = updLayer (R := 100000) (N := 64) (V c main_v77) (V c main_v65) (V c main_v12) (V c main_v78)
        (((cfg6.win 4).blk t).view.emb (ix2 p g))
  rw [out_entry t p g]
  refine (body_at _ _ _ _ p g).trans ?_
  show updAt (R := 5000) (N := 64) (iblk6 V c 0 t) (iblk6 V c 1 t) (iblk6 V c 2 t) (iblk6 V c 3 t) p g
    = updAt (R := 100000) (N := 64) (V c main_v77) (V c main_v65) (V c main_v12) (V c main_v78) (blockRow t p) g
  unfold updAt
  simp only [agg_block, hw_block, s_block, b_block]

/-- An index of the array is in point t's block iff each coordinate is in the block's range on its axis. -/
theorem mem_block (t : Fin cfg6.N) (i : S100000x64.Idx) :
    i ∈ ((cfg6.win 4).blk t).view.set ↔ ∀ a : Fin 2, win6_4.index t a * S5000x64.size a ≤ (i a).val
      ∧ (i a).val < win6_4.index t a * S5000x64.size a + S5000x64.size a := by
  show i ∈ ((View.whole main_v79).slice (win6_4.rect t)).set ↔ _
  rw [View.set_slice_whole, Rect.mem_set_unit]
  exact Iff.rfl

/-- The 20 blocks of 5000 rows tile the 100000 rows: row r is in block r / 5000. -/
theorem cover (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  obtain ⟨t, ht⟩ : ∃ t : Fin cfg6.N, t.val = (i 0).val / 5000 := ⟨⟨(i 0).val / 5000, by omega⟩, rfl⟩
  obtain ⟨-, -, -, -, -, -, -, -, q0, q1⟩ := block_index t
  refine ⟨t, flush6_4 t, ?_⟩
  rw [mem_block]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- The result array after the region: the node update of the arrays the region found. -/
theorem final6 (c : Dev nD) : (dat6 (F := Ideal) V c).arrAt 4 cfg6.N
    = updLayer (R := 100000) (N := 64) (V c main_v77) (V c main_v65) (V c main_v12) (V c main_v78) :=
  (dat6 (F := Ideal) V c).arrAt_eq_of_cover 4 _ (fun t _ => flushed_eq V c t) cover

end Cert.KernelIdeal.Reg6

end
-- ==== Proof.Reg7.lean ====
/-
  Region 7 of the idealized kernel: the two-layer head on the 1024 pooled rows,
  out = max (p · W1 + b1, 0) · W2 + b2,  with p : [1024, 64], W1 : [64, 64], b1 : [1, 64], W2 : [64, 1], b2 : [1, 1].
  The grid has ONE point, and at it every window's block is its whole array: the body loads p, both weights and both
  bias rows entire, forms the first layer (a plain matrix product of the operands narrowed to bf16 — the identity on the
  extended reals — into the zero accumulator, plus the bias row repeated down the rows), rectifies it, forms the second
  layer of the rectified matrix the same way, and writes the [1024, 1] result back whole.  Entry (r, 0) of the result is
  Σₖ max (Σⱼ p (r, j) · W1 (j, k) + b1 (0, k), 0) · W2 (k, 0) + b2 (0, 0).  The single block covers the array, so the
  array ends holding that matrix.
-/
import proofs.«181907_j87514253623368_1_alg».proof.Proof.Gen.KernelIdeal.Frame
import proofs.«181907_j87514253623368_1_alg».proof.Proof.LibGcnLayers

set_option maxRecDepth 16384

noncomputable section

namespace Cert.KernelIdeal.Reg7

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLayers
open scoped BigOperators

variable (V : (c : Dev nD) → (b : Ref sig .tc) → Buf (Elt Ideal) ((c : Thread nD τ).loc b))

/-- A block's offsets inside its own staging buffer are zero on both axes. -/
theorem zero_offsets : (![0, 0] : Fin 2 → Nat) = fun _ => 0 := funext fun a => by fin_cases a <;> rfl

/-- The two printed contractions (left columns against right rows, no batch axis) are plain matrix products. -/
theorem dims_plain_hidden : dot_S1024x64_S64x64_S1024x64_1_0_0_1_n_n = DotDims.plain 1024 64 64 := rfl
theorem dims_plain_out : dot_S1024x64_S64x1_S1024x1_1_0_0_1_n_n = DotDims.plain 1024 64 1 := rfl

/-- The body's stored value at entry (r, 0): the second layer of the rectified first layer of the loaded arrays. -/
theorem head_at (x0 : Vec Ideal S1024x64 .f32) (x1 : Vec Ideal S64x64 .f32) (x2 : Vec Ideal S1x64 .f32)
    (x3 : Vec Ideal S64x1 .f32) (x4 : Vec Ideal S1x1 .f32) (r : Fin 1024) :
    k7_pay1 (F := Ideal) x0 x1 x2 x3 x4 (ix2 r (0 : Fin 1))
      = affineAt (R := 1024) (K := 64) (N := 1) (projLayer (R := 1024) (K := 64) (N := 64) x0 x1 x2) x3 x4 r 0 := by
  unfold k7_pay1
  refine (kernel_affine_at (R := 1024) (K := 64) (N := 1) _ (shapeCast S64x1 x3 shapeCasts_S64x1_S64x1) x4
    bitsLt_bf16_f32 bitsLt_bf16_f32 shapeCasts_S1x1_S1x1 broadcasts_S1x1_S1024x1 r 0).trans ?_
  rw [shapeCast_self x3]
  refine congrArg (fun A => affineAt (R := 1024) (K := 64) (N := 1) A x3 x4 r 0) ?_
  funext i
  obtain ⟨p, g, rfl⟩ : ∃ (p : Fin 1024) (g : Fin 64), i = ix2 p g := ⟨i 0, i 1, eq_ix2 i⟩
  refine (maximumf_apply _ _ _).trans ?_
  refine congrArg₂ max ?_ rfl
  refine (kernel_affine_at (R := 1024) (K := 64) (N := 64) (shapeCast S1024x64 x0 shapeCasts_S1024x64_S1024x64)
    (shapeCast S64x64 x1 shapeCasts_S64x64_S64x64) x2 bitsLt_bf16_f32 bitsLt_bf16_f32 shapeCasts_S1x64_S1x64
    broadcasts_S1x64_S1024x64 p g).trans ?_
  rw [shapeCast_self, shapeCast_self]

/-- The printed index maps at the grid's points: every window's block index is zero on both axes. -/
theorem index_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- The pooled rows' block is the whole array. -/
theorem pooled_block (c : Dev nD) (t : Fin cfg7.N) (p : Fin 1024) (k : Fin 64) :
    iblk7 V c 0 t (ix2 p k) = V c main_v91 (ix2 p k) := by
  obtain ⟨e0, e1, -⟩ := index_facts t
  show V c main_v91 (((cfg7.win 0).blk t).view.emb (ix2 p k)) = V c main_v91 (ix2 p k)
  refine congrArg (V c main_v91) (funext fun a => Fin.ext ?_)
  match a with
  | ⟨0, _⟩ => show win7_0.index t (0 : Fin 2) * 1024 + 1 * p.val = p.val; omega
  | ⟨1, _⟩ => show win7_0.index t (1 : Fin 2) * 64 + 1 * k.val = k.val; omega

/-- The first weight's block is the whole weight. -/
theorem hidden_weight_block (c : Dev nD) (t : Fin cfg7.N) (k g : Fin 64) :
    iblk7 V c 1 t (ix2 k g) = V c main_v92 (ix2 k g) := by
  obtain ⟨-, -, e0, e1, -⟩ := index_facts t
  show V c main_v92 (((cfg7.win 1).blk t).view.emb (ix2 k g)) = V c main_v92 (ix2 k g)
  refine congrArg (V c main_v92) (funext fun a => Fin.ext ?_)
  match a with
  | ⟨0, _⟩ => show win7_1.index t (0 : Fin 2) * 64 + 1 * k.val = k.val; omega
  | ⟨1, _⟩ => show win7_1.index t (1 : Fin 2) * 64 + 1 * g.val = g.val; omega

/-- The first bias row's block is the whole row. -/
theorem hidden_bias_block (c : Dev nD) (t : Fin cfg7.N) (u : Fin 1) (g : Fin 64) :
    iblk7 V c 2 t (ix2 u g) = V c main_v93 (ix2 u g) := by
  obtain ⟨-, -, -, -, e0, e1, -⟩ := index_facts t
  show V c main_v93 (((cfg7.win 2).blk t).view.emb (ix2 u g)) = V c main_v93 (ix2 u g)
  refine congrArg (V c main_v93) (funext fun a => Fin.ext ?_)
  match a with
  | ⟨0, _⟩ => show win7_2.index t (0 : Fin 2) * 1 + 1 * u.val = u.val; omega
  | ⟨1, _⟩ => show win7_2.index t (1 : Fin 2) * 64 + 1 * g.val = g.val; omega

/-- The second weight's block is the whole column. -/
theorem out_weight_block (c : Dev nD) (t : Fin cfg7.N) (k : Fin 64) (u : Fin 1) :
    iblk7 V c 3 t (ix2 k u) = V c main_v94 (ix2 k u) := by
  obtain ⟨-, -, -, -, -, -, e0, e1, -⟩ := index_facts t
  show V c main_v94 (((cfg7.win 3).blk t).view.emb (ix2 k u)) = V c main_v94 (ix2 k u)
  refine congrArg (V c main_v94) (funext fun a => Fin.ext ?_)
  match a with
  | ⟨0, _⟩ => show win7_3.index t (0 : Fin 2) * 64 + 1 * k.val = k.val; omega
  | ⟨1, _⟩ => show win7_3.index t (1 : Fin 2) * 1 + 1 * u.val = u.val; omega

/-- The second bias's block is the whole [1, 1] array. -/
theorem out_bias_block (c : Dev nD) (t : Fin cfg7.N) (u v : Fin 1) :
    iblk7 V c 4 t (ix2 u v) = V c main_v95 (ix2 u v) := by
  obtain ⟨-, -, -, -, -, -, -, -, e0, e1, -⟩ := index_facts t
  show V c main_v95 (((cfg7.win 4).blk t).view.emb (ix2 u v)) = V c main_v95 (ix2 u v)
  refine congrArg (V c main_v95) (funext fun a => Fin.ext ?_)
  match a with
  | ⟨0, _⟩ => show win7_4.index t (0 : Fin 2) * 1 + 1 * u.val = u.val; omega
  | ⟨1, _⟩ => show win7_4.index t (1 : Fin 2) * 1 + 1 * v.val = v.val; omega

/-- Entry (r, u) of the result's block sits at (r, u) of the array. -/
theorem result_entry (t : Fin cfg7.N) (r : Fin 1024) (u : Fin 1) :
    ((cfg7.win 5).blk t).view.emb (ix2 r u) = (ix2 r u : S1024x1.Idx) := by
  obtain ⟨-, -, -, -, -, -, -, -, -, -, e0, e1⟩ := index_facts t
  refine funext fun a => Fin.ext ?_
  match a with
  | ⟨0, _⟩ => show win7_5.index t (0 : Fin 2) * 1024 + 1 * r.val = r.val; omega
  | ⟨1, _⟩ => show win7_5.index t (1 : Fin 2) * 1 + 1 * u.val = u.val; omega

/-- The rectified first layer of the blocks is the rectified first layer of the arrays. -/
theorem hidden_blocks (c : Dev nD) (t : Fin cfg7.N) :
    projLayer (R := 1024) (K := 64) (N := 64) (iblk7 V c 0 t) (iblk7 V c 1 t) (iblk7 V c 2 t)
      = projLayer (R := 1024) (K := 64) (N := 64) (V c main_v91) (V c main_v92) (V c main_v93) := by
  funext i
  obtain ⟨p, g, rfl⟩ : ∃ (p : Fin 1024) (g : Fin 64), i = ix2 p g := ⟨i 0, i 1, eq_ix2 i⟩
  show max (affineAt (R := 1024) (K := 64) (N := 64) (iblk7 V c 0 t) (iblk7 V c 1 t) (iblk7 V c 2 t) p g) zeroF
    = max (affineAt (R := 1024) (K := 64) (N := 64) (V c main_v91) (V c main_v92) (V c main_v93) p g) zeroF
  unfold affineAt
  simp only [pooled_block, hidden_weight_block, hidden_bias_block]

/-- What the one point writes back is the whole head of the arrays as the region finds them. -/
theorem flushed_eq (c : Dev nD) (t : Fin cfg7.N) :
    (dat7 (F := Ideal) V c).flushed 5 t = ((cfg7.win 5).blk t).view.read (Elt Ideal)
      (affLayer (R := 1024) (K := 64) (N := 1)
        (projLayer (R := 1024) (K := 64) (N := 64) (V c main_v91) (V c main_v92) (V c main_v93)) (V c main_v94) (V c main_v95)) := by
  show (cfg7.win 5).cut (grid7.coords t) ((dat7 (F := Ideal) V c).after 5 t) = _
  rw [after7_5]
  unfold out7_5
  rw [View.canon_unit_zero zero_offsets]
  simp only [View.ld_unit_zero (S := S1024x64) zero_offsets, View.ld_unit_zero (S := S64x64) zero_offsets,
    View.ld_unit_zero (S := S1x64) zero_offsets, View.ld_unit_zero (S := S64x1) zero_offsets,
    View.ld_unit_zero (S := S1x1) zero_offsets]
  funext j
  obtain ⟨r, u, rfl⟩ : ∃ (r : Fin 1024) (u : Fin 1), j = ix2 r u := ⟨j 0, j 1, eq_ix2 j⟩
  obtain rfl : u = 0 := Subsingleton.elim _ _
  show k7_pay1 (F := Ideal) (iblk7 V c 0 t) (iblk7 V c 1 t) (iblk7 V c 2 t) (iblk7 V c 3 t) (iblk7 V c 4 t) (ix2 r (0 : Fin 1))
    = affLayer (R := 1024) (K := 64) (N := 1)
        (projLayer (R := 1024) (K := 64) (N := 64) (V c main_v91) (V c main_v92) (V c main_v93)) (V c main_v94) (V c main_v95)
        (((cfg7.win 5).blk t).view.emb (ix2 r (0 : Fin 1)))
  rw [result_entry t r 0]
  refine (head_at _ _ _ _ _ r).trans ?_
  rw [hidden_blocks V c t]
  show affineAt (R := 1024) (K := 64) (N := 1)
      (projLayer (R := 1024) (K := 64) (N := 64) (V c main_v91) (V c main_v92) (V c main_v93)) (iblk7 V c 3 t) (iblk7 V c 4 t) r 0
    = affineAt (R := 1024) (K := 64) (N := 1)
      (projLayer (R := 1024) (K := 64) (N := 64) (V c main_v91) (V c main_v92) (V c main_v93)) (V c main_v94) (V c main_v95) r 0
  unfold affineAt
  simp only [out_weight_block, out_bias_block]

/-- An index of the array is in point t's block iff each coordinate is in the block's range on its axis. -/
theorem mem_block (t : Fin cfg7.N) (i : S1024x1.Idx) :
    i ∈ ((cfg7.win 5).blk t).view.set ↔ ∀ a : Fin 2, win7_5.index t a * S1024x1.size a ≤ (i a).val ∧ (i a).val < win7_5.index t a * S1024x1.size a + S1024x1.size a := by
  show i ∈ ((View.whole main_v96).slice (win7_5.rect t)).set ↔ _
  rw [View.set_slice_whole, Rect.mem_set_unit]
  exact Iff.rfl

/-- The grid has a point. -/
theorem some_point : ∃ t : Fin cfg7.N, win7_5.index t = ![0, 0] :=
  (by decide +kernel : ∃ t : Fin grid7.N, win7_5.index t = ![0, 0])

/-- The one block of 1024 rows and 1 column is the whole array: every index is in it. -/
theorem cover (i : S1024x1.Idx) : ∃ t : Fin cfg7.N, (cfg7.win 5).flush t = true ∧ i ∈ ((cfg7.win 5).blk t).view.set := by
  have hi0 : (i 0).val < 1024 := (i 0).isLt
  have hi1 : (i 1).val < 1 := (i 1).isLt
  obtain ⟨t, ht⟩ := some_point
  have q0 : win7_5.index t (0 : Fin 2) = 0 := congrFun ht 0
  have q1 : win7_5.index t (1 : Fin 2) = 0 := congrFun ht 1
  refine ⟨t, flush7_5 t, ?_⟩
  rw [mem_block]
  intro a
  match a with
  | ⟨0, _⟩ => show win7_5.index t (0 : Fin 2) * 1024 ≤ (i 0).val ∧ (i 0).val < win7_5.index t (0 : Fin 2) * 1024 + 1024; omega
  | ⟨1, _⟩ => show win7_5.index t (1 : Fin 2) * 1 ≤ (i 1).val ∧ (i 1).val < win7_5.index t (1 : Fin 2) * 1 + 1; omega

/-- The head's array after the region: the second layer of the rectified first layer of the arrays the region found. -/
theorem final7 (c : Dev nD) : (dat7 (F := Ideal) V c).arrAt 5 cfg7.N
    = affLayer (R := 1024) (K := 64) (N := 1)
        (projLayer (R := 1024) (K := 64) (N := 64) (V c main_v91) (V c main_v92) (V c main_v93)) (V c main_v94) (V c main_v95) :=
  (dat7 (F := Ideal) V c).arrAt_eq_of_cover 5 _ (fun t _ => flushed_eq V c t) cover

end Cert.KernelIdeal.Reg7

end
-- ==== Proof.Chain.lean ====
/-
  The idealized kernel's run, boundary by boundary, against the reference's stages.

  @main alternates host stretches and kernel regions.  Region by region the output array is the layer function of the
  arrays the region found (the encoder, three times a bias-free product followed, after the host's message passing, by
  a node update, and the head); stretch by stretch the host operations are the reference's own — the gather of source
  features, the product with the edge weights, the scatter-add over destinations, the mean pooling — applied to buffers
  that hold, by the previous steps, the reference's stages.  So every buffer the next step reads holds the reference's
  stage of the same arguments, and the last region leaves the reference's result in the result array.
  The buffers computed once by the first stretch (edge lists, self-loop and edge weights) and the weight and bias
  arguments are read at later boundaries through `Persist`.
-/
import proofs.«181907_j87514253623368_1_alg».proof.Proof.Persist
import proofs.«181907_j87514253623368_1_alg».proof.Proof.Stage0
import proofs.«181907_j87514253623368_1_alg».proof.Proof.HostStages
import proofs.«181907_j87514253623368_1_alg».proof.Proof.RefStages
import proofs.«181907_j87514253623368_1_alg».proof.Proof.Reg0
import proofs.«181907_j87514253623368_1_alg».proof.Proof.Reg1
import proofs.«181907_j87514253623368_1_alg».proof.Proof.Reg2
import proofs.«181907_j87514253623368_1_alg».proof.Proof.Reg3
import proofs.«181907_j87514253623368_1_alg».proof.Proof.Reg4
import proofs.«181907_j87514253623368_1_alg».proof.Proof.Reg5
import proofs.«181907_j87514253623368_1_alg».proof.Proof.Reg6
import proofs.«181907_j87514253623368_1_alg».proof.Proof.Reg7

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read Cert.ReferenceIdeal.Stages Cert.SageLayers Cert.GcnLayers

variable (m : (ℓ : Loc nD τ sig) → Buf (Elt Ideal) ℓ) (ρ : Dev nD → PrngReg) (c : Dev nD)

/-! ## What the persistent buffers hold at a boundary -/

theorem W2_arg5 : W2 m ρ c (Proc.devRef .tc main_arg5) = m ((c : Thread nD τ).loc main_arg5) := (persist2 m ρ c).a5.trans (W1_arg5 m ρ c)
theorem W4_arg6 : W4 m ρ c (Proc.devRef .tc main_arg6) = m ((c : Thread nD τ).loc main_arg6) := (persist4 m ρ c).a6.trans (W1_arg6 m ρ c)
theorem W4_v1 : W4 m ρ c (Proc.devRef .tc main_v1) = val_main_v1 (F := Ideal) (m ((c : Thread nD τ).loc main_arg1)) := (persist4 m ρ c).v1.trans (W1_v1 m ρ c)
theorem W4_v3 : W4 m ρ c (Proc.devRef .tc main_v3) = val_main_v3 (F := Ideal) (m ((c : Thread nD τ).loc main_arg1)) := (persist4 m ρ c).v3.trans (W1_v3 m ρ c)
theorem W4_v28 : W4 m ρ c (Proc.devRef .tc main_v28) = val_main_v41 (F := Ideal) (m ((c : Thread nD τ).loc main_arg1)) := (persist4 m ρ c).v28.trans (W1_v28 m ρ c)
theorem W4_v12 : W4 m ρ c (Proc.devRef .tc main_v12) = val_main_v48 (F := Ideal) (m ((c : Thread nD τ).loc main_arg1)) := (persist4 m ρ c).v12.trans (W1_v12 m ρ c)
theorem W6_arg7 : W6 m ρ c (Proc.devRef .tc main_arg7) = m ((c : Thread nD τ).loc main_arg7) := (persist6 m ρ c).a7.trans (W1_arg7 m ρ c)
theorem W8_arg8 : W8 m ρ c (Proc.devRef .tc main_arg8) = m ((c : Thread nD τ).loc main_arg8) := (persist8 m ρ c).a8.trans (W1_arg8 m ρ c)
theorem W8_v1 : W8 m ρ c (Proc.devRef .tc main_v1) = val_main_v1 (F := Ideal) (m ((c : Thread nD τ).loc main_arg1)) := (persist8 m ρ c).v1.trans (W1_v1 m ρ c)
theorem W8_v3 : W8 m ρ c (Proc.devRef .tc main_v3) = val_main_v3 (F := Ideal) (m ((c : Thread nD τ).loc main_arg1)) := (persist8 m ρ c).v3.trans (W1_v3 m ρ c)
theorem W8_v28 : W8 m ρ c (Proc.devRef .tc main_v28) = val_main_v41 (F := Ideal) (m ((c : Thread nD τ).loc main_arg1)) := (persist8 m ρ c).v28.trans (W1_v28 m ρ c)
theorem W8_v12 : W8 m ρ c (Proc.devRef .tc main_v12) = val_main_v48 (F := Ideal) (m ((c : Thread nD τ).loc main_arg1)) := (persist8 m ρ c).v12.trans (W1_v12 m ρ c)
theorem W10_arg9 : W10 m ρ c (Proc.devRef .tc main_arg9) = m ((c : Thread nD τ).loc main_arg9) := (persist10 m ρ c).a9.trans (W1_arg9 m ρ c)
theorem W12_arg10 : W12 m ρ c (Proc.devRef .tc main_arg10) = m ((c : Thread nD τ).loc main_arg10) := (persist12 m ρ c).a10.trans (W1_arg10 m ρ c)
theorem W12_v1 : W12 m ρ c (Proc.devRef .tc main_v1) = val_main_v1 (F := Ideal) (m ((c : Thread nD τ).loc main_arg1)) := (persist12 m ρ c).v1.trans (W1_v1 m ρ c)
theorem W12_v3 : W12 m ρ c (Proc.devRef .tc main_v3) = val_main_v3 (F := Ideal) (m ((c : Thread nD τ).loc main_arg1)) := (persist12 m ρ c).v3.trans (W1_v3 m ρ c)
theorem W12_v28 : W12 m ρ c (Proc.devRef .tc main_v28) = val_main_v41 (F := Ideal) (m ((c : Thread nD τ).loc main_arg1)) := (persist12 m ρ c).v28.trans (W1_v28 m ρ c)
theorem W12_v12 : W12 m ρ c (Proc.devRef .tc main_v12) = val_main_v48 (F := Ideal) (m ((c : Thread nD τ).loc main_arg1)) := (persist12 m ρ c).v12.trans (W1_v12 m ρ c)
theorem W14_arg2 : W14 m ρ c (Proc.devRef .tc main_arg2) = m ((c : Thread nD τ).loc main_arg2) := (persist14 m ρ c).a2.trans (W1_arg2 m ρ c)
theorem W14_arg11 : W14 m ρ c (Proc.devRef .tc main_arg11) = m ((c : Thread nD τ).loc main_arg11) := (persist14 m ρ c).a11.trans (W1_arg11 m ρ c)
theorem W14_arg12 : W14 m ρ c (Proc.devRef .tc main_arg12) = m ((c : Thread nD τ).loc main_arg12) := (persist14 m ρ c).a12.trans (W1_arg12 m ρ c)
theorem W14_arg13 : W14 m ρ c (Proc.devRef .tc main_arg13) = m ((c : Thread nD τ).loc main_arg13) := (persist14 m ρ c).a13.trans (W1_arg13 m ρ c)
theorem W14_arg14 : W14 m ρ c (Proc.devRef .tc main_arg14) = m ((c : Thread nD τ).loc main_arg14) := (persist14 m ρ c).a14.trans (W1_arg14 m ρ c)

/-! ## Region 0: the encoder -/

theorem W2_v31 : W2 m ρ c (Proc.devRef .tc main_v31) = val_main_v16 (F := Ideal) (m ((c : Thread nD τ).loc main_arg0)) (m ((c : Thread nD τ).loc main_arg3)) (m ((c : Thread nD τ).loc main_arg4)) := by
  refine (W2_arr m ρ c 3).trans ((Reg0.final0 (V1 m ρ) c).trans ?_)
  rw [show V1 m ρ c main_arg0 = _ from W1_arg0 m ρ c, show V1 m ρ c main_v29 = _ from W1_v29 m ρ c,
    show V1 m ρ c main_v30 = _ from W1_v30 m ρ c]
  exact (enc_eq _ _ _).symm

/-! ## Layer 1 -/

theorem W3_v31 : W3 m ρ c (Proc.devRef .tc main_v31) = val_main_v16 (F := Ideal) (m ((c : Thread nD τ).loc main_arg0)) (m ((c : Thread nD τ).loc main_arg3)) (m ((c : Thread nD τ).loc main_arg4)) := (host1_v31 (W2 m ρ c)).trans (W2_v31 m ρ c)
theorem W3_v32 : W3 m ρ c (Proc.devRef .tc main_v32) = val_main_v17 (F := Ideal) (m ((c : Thread nD τ).loc main_arg5)) :=
  (host1_v32 (W2 m ρ c)).trans (congrArg (val_main_v17 (F := Ideal)) (W2_arg5 m ρ c))

theorem W4_v33 : W4 m ρ c (Proc.devRef .tc main_v33) = val_main_v18 (F := Ideal) (m ((c : Thread nD τ).loc main_arg0)) (m ((c : Thread nD τ).loc main_arg3)) (m ((c : Thread nD τ).loc main_arg4)) (m ((c : Thread nD τ).loc main_arg5)) := by
  refine (W4_arr m ρ c 2).trans ((Reg1.final1 (V3 m ρ) c).trans ?_)
  rw [show V3 m ρ c main_v31 = _ from W3_v31 m ρ c, show V3 m ρ c main_v32 = _ from W3_v32 m ρ c]
  exact (lin1_eq _ _ _ _).symm

theorem W5_v45 : W5 m ρ c (Proc.devRef .tc main_v45) = val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (host2_v45 (W4 m ρ c)).trans ?_
  rw [W4_v33 m ρ c, W4_v1 m ρ c, W4_v3 m ρ c, W4_v28 m ρ c]
  exact (agg1_eq _ _ _ _ _).symm
theorem W5_v46 : W5 m ρ c (Proc.devRef .tc main_v46) = val_main_v52 (F := Ideal) (m ((c : Thread nD τ).loc main_arg6)) :=
  (host2_v46 (W4 m ρ c)).trans (congrArg (val_main_v52 (F := Ideal)) (W4_arg6 m ρ c))
theorem W5_v33 : W5 m ρ c (Proc.devRef .tc main_v33) = val_main_v18 (F := Ideal) (m ((c : Thread nD τ).loc main_arg0)) (m ((c : Thread nD τ).loc main_arg3)) (m ((c : Thread nD τ).loc main_arg4)) (m ((c : Thread nD τ).loc main_arg5)) := (host2_v33 (W4 m ρ c)).trans (W4_v33 m ρ c)
theorem W5_v12 : W5 m ρ c (Proc.devRef .tc main_v12) = val_main_v48 (F := Ideal) (m ((c : Thread nD τ).loc main_arg1)) := (host2_v12 (W4 m ρ c)).trans (W4_v12 m ρ c)

theorem W6_v47 : W6 m ρ c (Proc.devRef .tc main_v47) = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 4).trans ((Reg2.final2 (V5 m ρ) c).trans ?_)
  rw [show V5 m ρ c main_v45 = _ from W5_v45 m ρ c, show V5 m ρ c main_v33 = _ from W5_v33 m ρ c,
    show V5 m ρ c main_v12 = _ from W5_v12 m ρ c, show V5 m ρ c main_v46 = _ from W5_v46 m ρ c]
  exact (upd1_eq _ _ _ _ _ _).symm

/-! ## Layer 2 -/

theorem W7_v47 : W7 m ρ c (Proc.devRef .tc main_v47) = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (host3_v47 (W6 m ρ c)).trans (W6_v47 m ρ c)
theorem W7_v48 : W7 m ρ c (Proc.devRef .tc main_v48) = val_main_v56 (F := Ideal) (m ((c : Thread nD τ).loc main_arg7)) :=
  (host3_v48 (W6 m ρ c)).trans (congrArg (val_main_v56 (F := Ideal)) (W6_arg7 m ρ c))

theorem W8_v49 : W8 m ρ c (Proc.devRef .tc main_v49) = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((Reg3.final3 (V7 m ρ) c).trans ?_)
  rw [show V7 m ρ c main_v47 = _ from W7_v47 m ρ c, show V7 m ρ c main_v48 = _ from W7_v48 m ρ c]
  exact (lin2_eq _ _ _ _ _ _ _).symm

theorem W9_v61 : W9 m ρ c (Proc.devRef .tc main_v61) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (host4_v61 (W8 m ρ c)).trans ?_
  rw [W8_v49 m ρ c, W8_v1 m ρ c, W8_v3 m ρ c, W8_v28 m ρ c, ← en2_eq]
  exact (agg2_eq _ _ _ _ _ _ _).symm
theorem W9_v62 : W9 m ρ c (Proc.devRef .tc main_v62) = val_main_v91 (F := Ideal) (m ((c : Thread nD τ).loc main_arg8)) :=
  (host4_v62 (W8 m ρ c)).trans (congrArg (val_main_v91 (F := Ideal)) (W8_arg8 m ρ c))
theorem W9_v49 : W9 m ρ c (Proc.devRef .tc main_v49) = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := (host4_v49 (W8 m ρ c)).trans (W8_v49 m ρ c)
theorem W9_v12 : W9 m ρ c (Proc.devRef .tc main_v12) = val_main_v87 (F := Ideal) (m ((c : Thread nD τ).loc main_arg1)) :=
  ((host4_v12 (W8 m ρ c)).trans (W8_v12 m ρ c)).trans (sn2_eq _).symm

theorem W10_v63 : W10 m ρ c (Proc.devRef .tc main_v63) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 4).trans ((Reg4.final4 (V9 m ρ) c).trans ?_)
  rw [show V9 m ρ c main_v61 = _ from W9_v61 m ρ c, show V9 m ρ c main_v49 = _ from W9_v49 m ρ c,
    show V9 m ρ c main_v12 = _ from W9_v12 m ρ c, show V9 m ρ c main_v62 = _ from W9_v62 m ρ c]
  exact (upd2_eq _ _ _ _ _ _ _ _).symm

/-! ## Layer 3 -/

theorem W11_v63 : W11 m ρ c (Proc.devRef .tc main_v63) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (host5_v63 (W10 m ρ c)).trans (W10_v63 m ρ c)
theorem W11_v64 : W11 m ρ c (Proc.devRef .tc main_v64) = val_main_v95 (F := Ideal) (m ((c : Thread nD τ).loc main_arg9)) :=
  (host5_v64 (W10 m ρ c)).trans (congrArg (val_main_v95 (F := Ideal)) (W10_arg9 m ρ c))

theorem W12_v65 : W12 m ρ c (Proc.devRef .tc main_v65) = val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ((Reg5.final5 (V11 m ρ) c).trans ?_)
  rw [show V11 m ρ c main_v63 = _ from W11_v63 m ρ c, show V11 m ρ c main_v64 = _ from W11_v64 m ρ c]
  exact (lin3_eq _ _ _ _ _ _ _ _ _).symm

theorem W13_v77 : W13 m ρ c (Proc.devRef .tc main_v77) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (host6_v77 (W12 m ρ c)).trans ?_
  rw [W12_v65 m ρ c, W12_v1 m ρ c, W12_v3 m ρ c, W12_v28 m ρ c, ← en3_eq]
  exact (agg3_eq _ _ _ _ _ _ _ _ _).symm
theorem W13_v78 : W13 m ρ c (Proc.devRef .tc main_v78) = val_main_v130 (F := Ideal) (m ((c : Thread nD τ).loc main_arg10)) :=
  (host6_v78 (W12 m ρ c)).trans (congrArg (val_main_v130 (F := Ideal)) (W12_arg10 m ρ c))
theorem W13_v65 : W13 m ρ c (Proc.devRef .tc main_v65) = val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (host6_v65 (W12 m ρ c)).trans (W12_v65 m ρ c)
theorem W13_v12 : W13 m ρ c (Proc.devRef .tc main_v12) = val_main_v126 (F := Ideal) (m ((c : Thread nD τ).loc main_arg1)) :=
  ((host6_v12 (W12 m ρ c)).trans (W12_v12 m ρ c)).trans (sn3_eq _).symm

theorem W14_v79 : W14 m ρ c (Proc.devRef .tc main_v79) = val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 4).trans ((Reg6.final6 (V13 m ρ) c).trans ?_)
  rw [show V13 m ρ c main_v77 = _ from W13_v77 m ρ c, show V13 m ρ c main_v65 = _ from W13_v65 m ρ c,
    show V13 m ρ c main_v12 = _ from W13_v12 m ρ c, show V13 m ρ c main_v78 = _ from W13_v78 m ρ c]
  exact (upd3_eq _ _ _ _ _ _ _ _ _ _).symm

/-! ## Pooling and the head -/

theorem W15_v91 : W15 m ρ c (Proc.devRef .tc main_v91) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (host7_v91 (W14 m ρ c)).trans ?_
  rw [W14_v79 m ρ c, W14_arg2 m ρ c]
  exact (pool_eq _ _ _ _ _ _ _ _ _ _ _).symm
theorem W15_v92 : W15 m ρ c (Proc.devRef .tc main_v92) = val_main_v146 (F := Ideal) (m ((c : Thread nD τ).loc main_arg11)) :=
  (host7_v92 (W14 m ρ c)).trans (congrArg (val_main_v146 (F := Ideal)) (W14_arg11 m ρ c))
theorem W15_v93 : W15 m ρ c (Proc.devRef .tc main_v93) = val_main_v148 (F := Ideal) (m ((c : Thread nD τ).loc main_arg12)) :=
  (host7_v93 (W14 m ρ c)).trans (congrArg (val_main_v148 (F := Ideal)) (W14_arg12 m ρ c))
theorem W15_v94 : W15 m ρ c (Proc.devRef .tc main_v94) = val_main_v152 (F := Ideal) (m ((c : Thread nD τ).loc main_arg13)) :=
  (host7_v94 (W14 m ρ c)).trans (congrArg (val_main_v152 (F := Ideal)) (W14_arg13 m ρ c))
theorem W15_v95 : W15 m ρ c (Proc.devRef .tc main_v95) = val_main_v154 (F := Ideal) (m ((c : Thread nD τ).loc main_arg14)) :=
  (host7_v95 (W14 m ρ c)).trans (congrArg (val_main_v154 (F := Ideal)) (W14_arg14 m ρ c))

/-- The result array after the run holds the reference's result stage of the launch arguments. -/
theorem result_eq : W16 m ρ c (Proc.devRef .tc main_v96) = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W16_arr m ρ c 5).trans ((Reg7.final7 (V15 m ρ) c).trans ?_)
  rw [show V15 m ρ c main_v91 = _ from W15_v91 m ρ c, show V15 m ρ c main_v92 = _ from W15_v92 m ρ c,
    show V15 m ρ c main_v93 = _ from W15_v93 m ρ c, show V15 m ρ c main_v94 = _ from W15_v94 m ρ c,
    show V15 m ρ c main_v95 = _ from W15_v95 m ρ c]
  exact (head_eq _ _ _ _ _ _ _ _ _ _ _ _ _ _ _).symm

end Cert.KernelIdeal.Chain

end
-- ==== Proof.lean ====
/-
  A three-layer graph convolution network with a mean-pooled two-layer head, as eight kernel regions among host
  operations, against the plain jnp reference: equal results on the extended reals.

  Both programs compute, from x, edge_index, batch and the weights,
      h⁰ = max (x · W_encᵀ + b_enc, 0),
      hˡ⁺¹ = max ((Aggˡ + (hˡ · Wˡᵀ) ∘ s) + bˡ, 0)   for l = 0, 1, 2,
      out = (max (pool (h³) · Wf1ᵀ + bf1, 0)) · Wf2ᵀ + bf2,
  where d counts a node's incoming edges plus one, s = d^(-1/2) · d^(-1/2) is the self-loop weight, Aggˡ adds up over
  the edges into a node the source's row of hˡ · Wˡᵀ times the edge weight d_src^(-1/2) · d_dst^(-1/2), and pool is
  the per-graph mean.  The kernel program computes each dense layer and each node update in a kernel region tiled
  over 20 blocks of 5000 nodes, narrowing the matrix products' operands to bf16, and leaves the degree count, the
  gathers and the scatter-adds on the host; the reference computes everything on the host.  On the extended reals a
  change of float format is the identity, a matrix product into a zero accumulator and a dot_general are the same sum
  over the contracted axis, and every entry of a dense layer or a node update reads only its own row of the row
  operands, so the 20 row blocks written back by a region are the blocks of one whole-matrix layer function.  The two
  programs associate the update's sum the same way, (agg + hw·s) + b, so no law of extended-real addition is used, and
  the precondition (finite inputs) is never opened.  The host stretches the two programs share (message passing and
  pooling) are carried as one function each.

  Modules: LibGcnLayers, LibGcnUpdate (the layer functions and their two spellings), Reg0 … Reg7 (each region's output array as its
  layer function of the arrays it found), KRun (the kernel program's run with the result named), Persist, Stage0,
  HostStages (the host stretches), RefStages (the reference's stages as layer functions), Chain (the kernel run's
  result is the reference's result stage).
-/
import proofs.«181907_j87514253623368_1_alg».proof.Defs
import proofs.«181907_j87514253623368_1_alg».proof.Proof.Gen.Kernel
import proofs.«181907_j87514253623368_1_alg».proof.Proof.Gen.Kernel.Skeleton
import proofs.«181907_j87514253623368_1_alg».proof.Proof.Gen.Kernel.Launch
import proofs.«181907_j87514253623368_1_alg».proof.Proof.Gen.Kernel.Points
import proofs.«181907_j87514253623368_1_alg».proof.Proof.Gen.Kernel.Frame
import proofs.«181907_j87514253623368_1_alg».proof.Proof.Gen.KernelIdeal
import proofs.«181907_j87514253623368_1_alg».proof.Proof.Gen.KernelIdeal.Skeleton
import proofs.«181907_j87514253623368_1_alg».proof.Proof.Gen.KernelIdeal.Launch
import proofs.«181907_j87514253623368_1_alg».proof.Proof.Gen.KernelIdeal.Points
import proofs.«181907_j87514253623368_1_alg».proof.Proof.Gen.KernelIdeal.Frame
import proofs.«181907_j87514253623368_1_alg».proof.Proof.Gen.ReferenceIdeal
import proofs.«181907_j87514253623368_1_alg».proof.Proof.Gen.Pre_finite_inputs
import proofs.«181907_j87514253623368_1_alg».proof.Proof.Gen.ReferenceIdeal.Run
import proofs.«181907_j87514253623368_1_alg».proof.Proof.Gen.ReferenceIdeal.Read
import proofs.«181907_j87514253623368_1_alg».proof.Proof.KRun
import proofs.«181907_j87514253623368_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's result stage of those arguments
    in their result arrays. -/
theorem algebraic : Cert.algebraic_KernelIdeal_ReferenceIdeal := by
  intro m ρ m' ρ' _ hagree
  refine ⟨fun c => Cert.KernelIdeal.Gen.W16 m ρ c (Proc.devRef .tc Cert.KernelIdeal.main_v96),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v156_eq, (hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2.1,
    (hagree c).2.2.2.2.2.2.2.2.2.2.2.2.2.1,
    (hagree c).2.2.2.2.2.2.2.2.2.2.2.2.2.2]
  exact (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
